-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x80x1024 : Shape := ⟨3, ![256, 80, 1024]⟩
abbrev S512x80x1 : Shape := ⟨3, ![512, 80, 1]⟩
abbrev S512 : Shape := ⟨1, ![512]⟩
abbrev S_ : Shape := ⟨0, ![]⟩

class Facts : Prop where
  bcast_S_S256x80x1024 : S_.BroadcastsInDim S256x80x1024 (![] : Fin 0 → Fin S256x80x1024.rank)
  reducesTo_S256x80x1024_S_d0_1_2 : S256x80x1024.ReducesTo [0, 1, 2] S_
  h_S_ : 0 < S_.numel
  bcast_S_S512x80x1 : S_.BroadcastsInDim S512x80x1 (![] : Fin 0 → Fin S512x80x1.rank)
  reducesTo_S512x80x1_S_d0_1_2 : S512x80x1.ReducesTo [0, 1, 2] S_
  bcast_S_S512 : S_.BroadcastsInDim S512 (![] : Fin 0 → Fin S512.rank)
  reducesTo_S512_S_d0 : S512.ReducesTo [0] S_

variable [Facts]

def fn {F : FTy → Type} [FloatOps F] (main_arg0 : FVec F S256x80x1024 .f32) (main_arg1 : FVec F S512x80x1 .f32) (main_arg2 : FVec F S512 .f32) : IVec S_ 1 :=
  let main_v0 : FVec F S256x80x1024 .f32 := Host.absf main_arg0
  let main_cst : FVec F S_ .f32 := constant S_ .f32 0x7F800000#32
  let main_v1 : FVec F S256x80x1024 .f32 := broadcastInDim S256x80x1024 ![] bcast_S_S256x80x1024 main_cst
  let main_v2 : IVec S256x80x1024 1 := cmpf .olt main_v0 main_v1
  let main_c : IVec S_ 1 := constantI S_ 1 1#1
  let main_v3 : IVec S_ 1 := (fun x v => Host.reduce IntOp.andi x v reducesTo_S256x80x1024_S_d0_1_2 h_S_) main_v2 main_c
  let main_v4 : FVec F S512x80x1 .f32 := Host.absf main_arg1
  let main_cst_0 : FVec F S_ .f32 := constant S_ .f32 0x7F800000#32
  let main_v5 : FVec F S512x80x1 .f32 := broadcastInDim S512x80x1 ![] bcast_S_S512x80x1 main_cst_0
  let main_v6 : IVec S512x80x1 1 := cmpf .olt main_v4 main_v5
  let main_c_1 : IVec S_ 1 := constantI S_ 1 1#1
  let main_v7 : IVec S_ 1 := (fun x v => Host.reduce IntOp.andi x v reducesTo_S512x80x1_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S256x80x1024 : Shape := ⟨3, ![256, 80, 1024]⟩
abbrev S512x80x1 : Shape := ⟨3, ![512, 80, 1]⟩
abbrev S512 : Shape := ⟨1, ![512]⟩
abbrev S512x80 : Shape := ⟨2, ![512, 80]⟩
abbrev S512x1 : Shape := ⟨2, ![512, 1]⟩
abbrev S2x512x128 : Shape := ⟨3, ![2, 512, 128]⟩
abbrev S1x80x1024 : Shape := ⟨3, ![1, 80, 1024]⟩
abbrev S1x512x128 : Shape := ⟨3, ![1, 512, 128]⟩
abbrev S512x128 : Shape := ⟨2, ![512, 128]⟩
abbrev S80x1024 : Shape := ⟨2, ![80, 1024]⟩
abbrev S512x1024 : Shape := ⟨2, ![512, 1024]⟩
abbrev S_ : Shape := ⟨0, ![]⟩
abbrev S256x512x1024 : Shape := ⟨3, ![256, 512, 1024]⟩
abbrev S1x512x1024 : Shape := ⟨3, ![1, 512, 1024]⟩

abbrev nBuf : Space → Nat
  | .hbm => 33
  | .vmem => 15
  | .smem => 0
  | _ => 0

abbrev bufTy : (tb : Table) → Fin (tcTables nBuf tb) → BufTy
  | .hbm, ⟨0, _⟩ => ⟨S256x80x1024, .f32⟩
  | .hbm, ⟨1, _⟩ => ⟨S512x80x1, .f32⟩
  | .hbm, ⟨2, _⟩ => ⟨S512, .f32⟩
  | .hbm, ⟨3, _⟩ => ⟨S512x80, .f32⟩
  | .hbm, ⟨4, _⟩ => ⟨S512x1, .f32⟩
  | .hbm, ⟨5, _⟩ => ⟨S2x512x128, .f32⟩
  | .hbm, ⟨6, _⟩ => ⟨S2x512x128, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S_, .f32⟩
  | .hbm, ⟨22, _⟩ => ⟨S512x1, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x1, .f32⟩
  | .hbm, ⟨28, _⟩ => ⟨S512x80, .f32⟩
  | .hbm, ⟨29, _⟩ => ⟨S512x80, .f32⟩
  | .hbm, ⟨30, _⟩ => ⟨S512x1, .f32⟩
  | .hbm, ⟨31, _⟩ => ⟨S512x1, .f32⟩
  | .hbm, ⟨32, _⟩ => ⟨S256x512x1024, .f32⟩
  | .local _ .vmem, ⟨0, _⟩ => ⟨S1x80x1024, .f32⟩
  | .local _ .vmem, ⟨1, _⟩ => ⟨S1x80x1024, .f32⟩
  | .local _ .vmem, ⟨2, _⟩ => ⟨S512x80, .f32⟩
  | .local _ .vmem, ⟨3, _⟩ => ⟨S512x1, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x80x1024, .f32⟩
  | .local _ .vmem, ⟨9, _⟩ => ⟨S1x80x1024, .f32⟩
  | .local _ .vmem, ⟨10, _⟩ => ⟨S512x80, .f32⟩
  | .local _ .vmem, ⟨11, _⟩ => ⟨S512x1, .f32⟩
  | .local _ .vmem, ⟨12, _⟩ => ⟨S512x1, .f32⟩
  | .local _ .vmem, ⟨13, _⟩ => ⟨S1x512x1024, .f32⟩
  | .local _ .vmem, ⟨14, _⟩ => ⟨S1x512x1024, .f32⟩
  | _, _ => ⟨S256x80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x80x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S512x80x1_S512x80 : S512x80x1.ShapeCasts S512x80
  shapeCasts_S512_S512x1 : S512.ShapeCasts S512x1
  inb_S1x512x128_S1x512x128_0_0_0 : ∀ a, (![0, 0, 0] : Fin 3 → Nat) a + S1x512x128.size a ≤ S1x512x128.size a
  h_S1x512x128 : 0 < S1x512x128.numel
  inb_S512x80_S512x80_0_0 : ∀ a, (![0, 0] : Fin 2 → Nat) a + S512x80.size a ≤ S512x80.size a
  h_S512x80 : 0 < S512x80.numel
  shapeCasts_S512x80_S512x80 : S512x80.ShapeCasts S512x80
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x80x1024_S1x80x1024_0_0_0 : ∀ a, (![0, 0, 0] : Fin 3 → Nat) a + S1x80x1024.size a ≤ S1x80x1024.size a
  h_S1x80x1024 : 0 < S1x80x1024.numel
  shapeCasts_S1x80x1024_S80x1024 : S1x80x1024.ShapeCasts S80x1024
  broadcasts_S512x1_S512x1024 : S512x1.Broadcasts S512x1024
  slices_S512x1024_o0_0_S512x128 : S512x1024.Slices ![0, 0] S512x128
  slices_S512x1024_o0_128_S512x128 : S512x1024.Slices ![0, 128] S512x128
  slices_S512x1024_o0_256_S512x128 : S512x1024.Slices ![0, 256] S512x128
  slices_S512x1024_o0_384_S512x128 : S512x1024.Slices ![0, 384] S512x128
  slices_S512x1024_o0_512_S512x128 : S512x1024.Slices ![0, 512] S512x128
  slices_S512x1024_o0_640_S512x128 : S512x1024.Slices ![0, 640] S512x128
  slices_S512x1024_o0_768_S512x128 : S512x1024.Slices ![0, 768] S512x128
  slices_S512x1024_o0_896_S512x128 : S512x1024.Slices ![0, 896] S512x128
  shapeCasts_S1x512x128_S1x512x128 : S1x512x128.ShapeCasts S1x512x128
  shapeCasts_S512x128_S1x512x128 : S512x128.ShapeCasts S1x512x128
  reducesTo_S2x512x128_S512_d0_2 : S2x512x128.ReducesTo [0, 2] S512
  h_S_ : 0 < S_.numel
  bcast_S_S512x1 : S_.BroadcastsInDim S512x1 (![] : Fin 0 → Fin S512x1.rank)
  bcast_S512x1_S512x80_0_1 : S512x1.BroadcastsInDim S512x80 (![0, 1] : Fin 2 → Fin S512x80.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x80_S80x1024_S512x1024_1_0_0_1_n_n_wf : DotDims.WF S512x80 S80x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x1024.size a ≤ S256x80x1024.size a
  hwx0_0 : ∀ i : grid0.Coords, EltTy.bits .f32 = 32 ∨ (Rect.block (s := S256x80x1024) S1x80x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x80.size a ≤ S512x80.size a
  hwx0_1 : ∀ i : grid0.Coords, EltTy.bits .f32 = 32 ∨ (Rect.block (s := S512x80) S512x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S2x512x128.size a
  hwx0_3 : ∀ i : grid0.Coords, EltTy.bits .f32 = 32 ∨ (Rect.block (s := S2x512x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S2x512x128.size a
  hwx0_4 : ∀ i : grid0.Coords, EltTy.bits .f32 = 32 ∨ (Rect.block (s := S2x512x128) S1x512x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x80x1024.size a ≤ S256x80x1024.size a
  hwx1_0 : ∀ i : grid1.Coords, EltTy.bits .f32 = 32 ∨ (Rect.block (s := S256x80x1024) S1x80x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x80.size a ≤ S512x80.size a
  hwx1_1 : ∀ i : grid1.Coords, EltTy.bits .f32 = 32 ∨ (Rect.block (s := S512x80) S512x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S512x1.size a
  hwx1_3 : ∀ i : grid1.Coords, EltTy.bits .f32 = 32 ∨ (Rect.block (s := S512x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S256x512x1024.size a
  hwx1_4 : ∀ i : grid1.Coords, EltTy.bits .f32 = 32 ∨ (Rect.block (s := S256x512x1024) S1x512x1024.size (cc1_transform_4 i) (hinb1_4 i)).WholeWords (EltTy.packing .f32)

variable [Facts₀]

def dot_S512x80_S80x1024_S512x1024_1_0_0_1_n_n : DotDims S512x80 S80x1024 S512x1024 where
  lhsContracting := [1]
  rhsContracting := [0]
  lhsNonContracting := [0]
  rhsNonContracting := [1]
  lhsBatch := []
  rhsBatch := []
  wf := dot_S512x80_S80x1024_S512x1024_1_0_0_1_n_n_wf

abbrev win0_0 : Pipeline.Window sig grid0 :=
  Pipeline.Window.ofSpec (Memref.whole main_arg0) S1x80x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x80x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S512x80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S512x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S256x80x1024 : Shape := ⟨3, ![256, 80, 1024]⟩
abbrev S512x80x1 : Shape := ⟨3, ![512, 80, 1]⟩
abbrev S512 : Shape := ⟨1, ![512]⟩
abbrev S512x80 : Shape := ⟨2, ![512, 80]⟩
abbrev S512x1 : Shape := ⟨2, ![512, 1]⟩
abbrev S256x512x128 : Shape := ⟨3, ![256, 512, 128]⟩
abbrev S1x80x1024 : Shape := ⟨3, ![1, 80, 1024]⟩
abbrev S1x512x128 : Shape := ⟨3, ![1, 512, 128]⟩
abbrev S512x128 : Shape := ⟨2, ![512, 128]⟩
abbrev S80x1024 : Shape := ⟨2, ![80, 1024]⟩
abbrev S512x1024 : Shape := ⟨2, ![512, 1024]⟩
abbrev S_ : Shape := ⟨0, ![]⟩
abbrev S256x512x1024 : Shape := ⟨3, ![256, 512, 1024]⟩
abbrev S1x512x1024 : Shape := ⟨3, ![1, 512, 1024]⟩

abbrev nBuf : Space → Nat
  | .hbm => 33
  | .vmem => 15
  | .smem => 0
  | _ => 0

abbrev bufTy : (tb : Table) → Fin (tcTables nBuf tb) → BufTy
  | .hbm, ⟨0, _⟩ => ⟨S256x80x1024, .f32⟩
  | .hbm, ⟨1, _⟩ => ⟨S512x80x1, .f32⟩
  | .hbm, ⟨2, _⟩ => ⟨S512, .f32⟩
  | .hbm, ⟨3, _⟩ => ⟨S512x80, .f32⟩
  | .hbm, ⟨4, _⟩ => ⟨S512x1, .f32⟩
  | .hbm, ⟨5, _⟩ => ⟨S256x512x128, .f32⟩
  | .hbm, ⟨6, _⟩ => ⟨S256x512x128, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S_, .f32⟩
  | .hbm, ⟨22, _⟩ => ⟨S512x1, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x1, .f32⟩
  | .hbm, ⟨28, _⟩ => ⟨S512x80, .f32⟩
  | .hbm, ⟨29, _⟩ => ⟨S512x80, .f32⟩
  | .hbm, ⟨30, _⟩ => ⟨S512x1, .f32⟩
  | .hbm, ⟨31, _⟩ => ⟨S512x1, .f32⟩
  | .hbm, ⟨32, _⟩ => ⟨S256x512x1024, .f32⟩
  | .local _ .vmem, ⟨0, _⟩ => ⟨S1x80x1024, .f32⟩
  | .local _ .vmem, ⟨1, _⟩ => ⟨S1x80x1024, .f32⟩
  | .local _ .vmem, ⟨2, _⟩ => ⟨S512x80, .f32⟩
  | .local _ .vmem, ⟨3, _⟩ => ⟨S512x1, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x80x1024, .f32⟩
  | .local _ .vmem, ⟨9, _⟩ => ⟨S1x80x1024, .f32⟩
  | .local _ .vmem, ⟨10, _⟩ => ⟨S512x80, .f32⟩
  | .local _ .vmem, ⟨11, _⟩ => ⟨S512x1, .f32⟩
  | .local _ .vmem, ⟨12, _⟩ => ⟨S512x1, .f32⟩
  | .local _ .vmem, ⟨13, _⟩ => ⟨S1x512x1024, .f32⟩
  | .local _ .vmem, ⟨14, _⟩ => ⟨S1x512x1024, .f32⟩
  | _, _ => ⟨S256x80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![256, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![256, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x80x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S512x80x1_S512x80 : S512x80x1.ShapeCasts S512x80
  shapeCasts_S512_S512x1 : S512.ShapeCasts S512x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S512x80_S512x80_0_0 : ∀ a, (![0, 0] : Fin 2 → Nat) a + S512x80.size a ≤ S512x80.size a
  h_S512x80 : 0 < S512x80.numel
  shapeCasts_S512x80_S512x80 : S512x80.ShapeCasts S512x80
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x80x1024_S1x80x1024_0_0_0 : ∀ a, (![0, 0, 0] : Fin 3 → Nat) a + S1x80x1024.size a ≤ S1x80x1024.size a
  h_S1x80x1024 : 0 < S1x80x1024.numel
  shapeCasts_S1x80x1024_S80x1024 : S1x80x1024.ShapeCasts S80x1024
  broadcasts_S512x1_S512x1024 : S512x1.Broadcasts S512x1024
  slices_S512x1024_o0_0_S512x128 : S512x1024.Slices ![0, 0] S512x128
  slices_S512x1024_o0_128_S512x128 : S512x1024.Slices ![0, 128] S512x128
  slices_S512x1024_o0_256_S512x128 : S512x1024.Slices ![0, 256] S512x128
  slices_S512x1024_o0_384_S512x128 : S512x1024.Slices ![0, 384] S512x128
  slices_S512x1024_o0_512_S512x128 : S512x1024.Slices ![0, 512] S512x128
  slices_S512x1024_o0_640_S512x128 : S512x1024.Slices ![0, 640] S512x128
  slices_S512x1024_o0_768_S512x128 : S512x1024.Slices ![0, 768] S512x128
  slices_S512x1024_o0_896_S512x128 : S512x1024.Slices ![0, 896] S512x128
  reducesTo_S256x512x128_S512_d0_2 : S256x512x128.ReducesTo [0, 2] S512
  h_S_ : 0 < S_.numel
  bcast_S_S512x1 : S_.BroadcastsInDim S512x1 (![] : Fin 0 → Fin S512x1.rank)
  bcast_S512x1_S512x80_0_1 : S512x1.BroadcastsInDim S512x80 (![0, 1] : Fin 2 → Fin S512x80.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x80_S80x1024_S512x1024_1_0_0_1_n_n_wf : DotDims.WF S512x80 S80x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x1024.size a ≤ S256x80x1024.size a
  hwx0_0 : ∀ i : grid0.Coords, EltTy.bits .f32 = 32 ∨ (Rect.block (s := S256x80x1024) S1x80x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x80.size a ≤ S512x80.size a
  hwx0_1 : ∀ i : grid0.Coords, EltTy.bits .f32 = 32 ∨ (Rect.block (s := S512x80) S512x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S256x512x128.size a
  hwx0_3 : ∀ i : grid0.Coords, EltTy.bits .f32 = 32 ∨ (Rect.block (s := S256x512x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S256x512x128.size a
  hwx0_4 : ∀ i : grid0.Coords, EltTy.bits .f32 = 32 ∨ (Rect.block (s := S256x512x128) S1x512x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x80x1024.size a ≤ S256x80x1024.size a
  hwx1_0 : ∀ i : grid1.Coords, EltTy.bits .f32 = 32 ∨ (Rect.block (s := S256x80x1024) S1x80x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x80.size a ≤ S512x80.size a
  hwx1_1 : ∀ i : grid1.Coords, EltTy.bits .f32 = 32 ∨ (Rect.block (s := S512x80) S512x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S512x1.size a
  hwx1_3 : ∀ i : grid1.Coords, EltTy.bits .f32 = 32 ∨ (Rect.block (s := S512x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S256x512x1024.size a
  hwx1_4 : ∀ i : grid1.Coords, EltTy.bits .f32 = 32 ∨ (Rect.block (s := S256x512x1024) S1x512x1024.size (cc1_transform_4 i) (hinb1_4 i)).WholeWords (EltTy.packing .f32)

variable [Facts₀]

def dot_S512x80_S80x1024_S512x1024_1_0_0_1_n_n : DotDims S512x80 S80x1024 S512x1024 where
  lhsContracting := [1]
  rhsContracting := [0]
  lhsNonContracting := [0]
  rhsNonContracting := [1]
  lhsBatch := []
  rhsBatch := []
  wf := dot_S512x80_S80x1024_S512x1024_1_0_0_1_n_n_wf

abbrev win0_0 : Pipeline.Window sig grid0 :=
  Pipeline.Window.ofSpec (Memref.whole main_arg0) S1x80x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x80x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S512x80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S512x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.RunK.lean ====
/-
  The run of this program with its RESULT named. The program is two pipelines among two stretches of host operations;
  the buffer contents at the four boundaries are a fold from the launch memory (`Gen.W1` … `Gen.W4`: a host stretch
  applies its operations, a pipeline replaces its arrays by what its write-backs leave). Every weakly fair execution
  terminates, nothing faulting, with EVERY unscoped buffer at the last boundary's contents `Gen.W4`: so the result
  buffer ends at `Gen.W4 … main_v22` — which is pipeline 1's output array after its last point — and the three
  arguments end as launched. The frame claim keeps only the arguments of this; the value claim needs the result too.
-/
import proofs.«158665_g2000400206852984_pallasbulk_1224_4_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is never scoped, so the last thread state holds it. -/
theorem result_mem_uc : Proc.devRef .tc main_v22 ∈ Pipeline.ucRefs τ sig := mem_uc main_v22 (by decide)

-- the launch theorem's implicit arguments are found by unifying its conclusion with this one, which takes unfolding
-- plain definitions in a metavariable's type
set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ result_mem_uc,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Run

end
-- ==== Proof.RunR.lean ====
/-
  The run of this program with its RESULT named. The program is two pipelines among two stretches of host operations;
  the buffer contents at the four boundaries are a fold from the launch memory (`Gen.W1` … `Gen.W4`: a host stretch
  applies its operations, a pipeline replaces its arrays by what its write-backs leave). Every weakly fair execution
  terminates, nothing faulting, with EVERY unscoped buffer at the last boundary's contents `Gen.W4`: so the result
  buffer ends at `Gen.W4 … main_v22` — which is pipeline 1's output array after its last point — and the three
  arguments end as launched. The frame claim keeps only the arguments of this; the value claim needs the result too.
-/
import proofs.«158665_g2000400206852984_pallasbulk_1224_4_alg».proof.Proof.Gen.ReferenceIdeal.Frame

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is never scoped, so the last thread state holds it. -/
theorem result_mem_uc : Proc.devRef .tc main_v22 ∈ Pipeline.ucRefs τ sig := mem_uc main_v22 (by decide)

-- the launch theorem's implicit arguments are found by unifying its conclusion with this one, which takes unfolding
-- plain definitions in a metavariable's type
set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ result_mem_uc,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.ReferenceIdeal.Run

end
-- ==== Proof.Rows.lean ====
/-
  One row of the input. Both programs walk the batch axis of `x : [256, 80, 1024]` one row at a time: a window whose
  block is `[1, 80, 1024]` at block index `(r, 0, 0)` reads row `r`. This module names that block as a function of the
  whole array, so that what either program computes from a row can be stated over the array itself.
-/
import Idealize.ShloMosaic.Lib.ValueIdx

namespace Cert.Rows

open Idealize.ShloMosaic Idealize.ShloMosaic.ValueIdx

/-- Row `r` of a `[256, 80, 1024]` array, as the `[1, 80, 1024]` block `(k, t) ↦ X (r, k, t)`. -/
def rowBlk {α : Type} (X : (⟨3, ![256, 80, 1024]⟩ : Shape).Idx → α) (r : Fin 256) :
    (⟨3, ![1, 80, 1024]⟩ : Shape).Idx → α :=
  fun y => X (ix3 r (show Fin 80 from y 1) (show Fin 1024 from y 2))

end Cert.Rows
-- ==== Proof.StatsK.lean ====
/-
  Pass 1 of the kernel, read as values at the exact reals.

  The kernel walks the 256 rows of the input on a (2, 128) grid. Point `t` (grid coordinates `(t / 128, t % 128)`) reads
  row `t` of the input, the whole weight and bias arrays, and works on block `t / 128` of each of its two
  `[2, 512, 128]` result arrays. With `y = relu (W · x + b)` the row's `[512, 1024]` activation, the body forms the
  row's lane partial (the sum of the eight `[512, 128]` column blocks of `y`, resp. of `y * y`) and adds it to the
  result block; at the first point of a group of 128 (`t % 128 = 0`) it first stores a zero block there, at every other
  point the block still holds what the point before left. The block is written back after the group's last point
  (`t % 128 = 127`).

  This module proves that after the last point the two arrays hold, at `(g, h, l)`, the sum over the 128 rows
  `128 g + n` of the row's lane partial `rowSum` (resp. `rowSq`) at `(h, l)`. Over the extended reals `0 + s = s`, and
  a `[512, 128]` array stored as a `[1, 512, 128]` block keeps its row-major positions, so one point turns the
  accumulator's entry `a` into `a + s` (or into `s` at a group's first point); by induction on the point the
  accumulator after point `n` holds the sum of the lane partials of rows `n - n % 128, …, n` (addition on the extended
  reals is associative with unit `0`, which is all the induction uses); at a group's last point that is the group's
  total, and the two written blocks tile each result array.
-/
import proofs.«158665_g2000400206852984_pallasbulk_1224_4_alg».proof.Proof.Rows
import proofs.«158665_g2000400206852984_pallasbulk_1224_4_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open Cert.Rows

namespace Cert.KernelIdeal.Stats

open Cert.KernelIdeal Cert.KernelIdeal.Gen

variable {F : FTy → Type} [FloatOps F]

/-- The lane partial of one row: with `y = relu (W · x + b)` the row's `[512, 1024]` activation, the sum of its eight
    `[512, 128]` column blocks, in the body's order (a zero block, the first seven blocks added in turn, then the eighth). -/
def rowSum (w : Vec F S512x80 .f32) (b : Vec F S512x1 .f32) (x : Vec F S1x80x1024 .f32) : FVec F S512x128 .f32 :=
  addf (k0_pay14 w b x) (k0_pay1 (k0_pay6 w b x))

/-- The same for the squares of the activation's entries. -/
def rowSq (w : Vec F S512x80 .f32) (b : Vec F S512x1 .f32) (x : Vec F S1x80x1024 .f32) : FVec F S512x128 .f32 :=
  addf (k0_pay15 w b x) (mulf (k0_pay1 (k0_pay6 w b x)) (k0_pay1 (k0_pay6 w b x)))

/-! ## What one grid point leaves in the two accumulators -/

theorem hz3 : (![0, 0, 0] : Fin 3 → Nat) = fun _ => 0 := funext fun a => by fin_cases a <;> rfl
theorem hz2 : (![0, 0] : Fin 2 → Nat) = fun _ => 0 := funext fun a => by fin_cases a <;> rfl

/-- A point that does not start a group of 128 rows adds the row's lane partial to what the first accumulator held. -/
theorem out_B3 (c : Dev nD) (i : grid0.Coords) (a2 : Memref sig .tc .vmem S1x80x1024 .f32) (h2 : a2.IsWhole)
    (a3 : Memref sig .tc .vmem S512x80 .f32) (h3 : a3.IsWhole) (a4 : Memref sig .tc .vmem S512x1 .f32) (h4 : a4.IsWhole)
    (a5 : Memref sig .tc .vmem S1x512x128 .f32) (h5 : a5.IsWhole) (a6 : Memref sig .tc .vmem S1x512x128 .f32) (h6 : a6.IsWhole)
    (hc : ¬cond0_0 i) (x0 : Vec F S1x80x1024 .f32) (x1 : Vec F S512x80 .f32) (x2 : Vec F S512x1 .f32)
    (xo3 xo4 : Vec F S1x512x128 .f32) :
    out0_B_3 c i a2 h2 a3 h3 a4 h4 a5 h5 a6 h6 hc x0 x1 x2 xo3 xo4
      = k0_pay2 (k0_pay6 x1 x2 x0) (k0_pay14 x1 x2 x0) xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread,
    View.ld_unit_zero (S := S1x512x128) hz3, View.ld_unit_zero (S := S1x80x1024) hz3,
    View.ld_unit_zero (S := S512x80) hz2, View.ld_unit_zero (S := S512x1) hz2]

/-- The same for the second accumulator (squares). -/
theorem out_B4 (c : Dev nD) (i : grid0.Coords) (a2 : Memref sig .tc .vmem S1x80x1024 .f32) (h2 : a2.IsWhole)
    (a3 : Memref sig .tc .vmem S512x80 .f32) (h3 : a3.IsWhole) (a4 : Memref sig .tc .vmem S512x1 .f32) (h4 : a4.IsWhole)
    (a5 : Memref sig .tc .vmem S1x512x128 .f32) (h5 : a5.IsWhole) (a6 : Memref sig .tc .vmem S1x512x128 .f32) (h6 : a6.IsWhole)
    (hc : ¬cond0_0 i) (x0 : Vec F S1x80x1024 .f32) (x1 : Vec F S512x80 .f32) (x2 : Vec F S512x1 .f32)
    (xo3 xo4 : Vec F S1x512x128 .f32) :
    out0_B_4 c i a2 h2 a3 h3 a4 h4 a5 h5 a6 h6 hc x0 x1 x2 xo3 xo4
      = k0_pay3 (k0_pay6 x1 x2 x0) (k0_pay15 x1 x2 x0) xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h6.read_unread,
    View.ld_unit_zero (S := S1x512x128) hz3, View.ld_unit_zero (S := S1x80x1024) hz3,
    View.ld_unit_zero (S := S512x80) hz2, View.ld_unit_zero (S := S512x1) hz2]

/-- A point that starts a group of 128 rows first stores the zero block, reads it back, and adds the row's lane partial. -/
theorem out_A3 (c : Dev nD) (i : grid0.Coords) (a2 : Memref sig .tc .vmem S1x80x1024 .f32) (h2 : a2.IsWhole)
    (a3 : Memref sig .tc .vmem S512x80 .f32) (h3 : a3.IsWhole) (a4 : Memref sig .tc .vmem S512x1 .f32) (h4 : a4.IsWhole)
    (a5 : Memref sig .tc .vmem S1x512x128 .f32) (h5 : a5.IsWhole) (a6 : Memref sig .tc .vmem S1x512x128 .f32) (h6 : a6.IsWhole)
    (hc : cond0_0 i) (x0 : Vec F S1x80x1024 .f32) (x1 : Vec F S512x80 .f32) (x2 : Vec F S512x1 .f32) :
    out0_A_3 c i a2 h2 a3 h3 a4 h4 a5 h5 a6 h6 hc x0 x1 x2
      = k0_pay2 (k0_pay6 x1 x2 x0) (k0_pay14 x1 x2 x0) k0_pay4 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x512x128) hz3, View.readCov_unit_zero (S := S1x512x128) _ hz3]
  simp only [View.readAt_eq_ld, h2.read_unread, h3.read_unread, h4.read_unread,
    View.ld_unit_zero (S := S1x80x1024) hz3, View.ld_unit_zero (S := S512x80) hz2, View.ld_unit_zero (S := S512x1) hz2]

/-- The same for the second accumulator (squares). -/
theorem out_A4 (c : Dev nD) (i : grid0.Coords) (a2 : Memref sig .tc .vmem S1x80x1024 .f32) (h2 : a2.IsWhole)
    (a3 : Memref sig .tc .vmem S512x80 .f32) (h3 : a3.IsWhole) (a4 : Memref sig .tc .vmem S512x1 .f32) (h4 : a4.IsWhole)
    (a5 : Memref sig .tc .vmem S1x512x128 .f32) (h5 : a5.IsWhole) (a6 : Memref sig .tc .vmem S1x512x128 .f32) (h6 : a6.IsWhole)
    (hc : cond0_0 i) (x0 : Vec F S1x80x1024 .f32) (x1 : Vec F S512x80 .f32) (x2 : Vec F S512x1 .f32) :
    out0_A_4 c i a2 h2 a3 h3 a4 h4 a5 h5 a6 h6 hc x0 x1 x2
      = k0_pay3 (k0_pay6 x1 x2 x0) (k0_pay15 x1 x2 x0) k0_pay5 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x512x128) hz3, View.readCov_unit_zero (S := S1x512x128) _ hz3]
  simp only [View.readAt_eq_ld, h2.read_unread, h3.read_unread, h4.read_unread,
    View.ld_unit_zero (S := S1x80x1024) hz3, View.ld_unit_zero (S := S512x80) hz2, View.ld_unit_zero (S := S512x1) hz2]

variable (V : (c : Dev nD) → (b : Ref sig .tc) → Buf (Elt Ideal) ((c : Thread nD τ).loc b))

/-- Entry `(g, h, l)` of the kernel's first result: the lane partials of the 128 rows `128 g + n` added up. -/
def sumsAt (W : Vec Ideal S512x80 .f32) (B : Vec Ideal S512x1 .f32) (X : Vec Ideal S256x80x1024 .f32)
    (g : Fin 2) (h : Fin 512) (l : Fin 128) : EReal :=
  ∑ n : Fin 128, rowSum W B (rowBlk X ⟨128 * g.val + n.val, by omega⟩) (ix2 h l)

/-- The same for the second result (squares). -/
def sumsqAt (W : Vec Ideal S512x80 .f32) (B : Vec Ideal S512x1 .f32) (X : Vec Ideal S256x80x1024 .f32)
    (g : Fin 2) (h : Fin 512) (l : Fin 128) : EReal :=
  ∑ n : Fin 128, rowSq W B (rowBlk X ⟨128 * g.val + n.val, by omega⟩) (ix2 h l)

/-! ## The same at the extended reals, entry by entry -/

/-- The first accumulator's update at entry `(u, h, l)`: what it held there plus the `[512, 128]` addend at `(h, l)`. -/
theorem pay2_apply (v15 : FVec Ideal S512x1024 .f32) (v41 : FVec Ideal S512x128 .f32) (acc : Vec Ideal S1x512x128 .f32)
    (u : Fin 1) (h : Fin 512) (l : Fin 128) :
    k0_pay2 v15 v41 acc (ix3 u h l) = acc (ix3 u h l) + addf v41 (k0_pay1 v15) (ix2 h l) := by
  unfold k0_pay2
  exact congrArg₂ (· + ·) (congrFun (shapeCast_self acc shapeCasts_S1x512x128_S1x512x128) (ix3 u h l))
    (shapeCast_ab_1ab_apply (addf v41 (k0_pay1 v15)) shapeCasts_S512x128_S1x512x128 u h l)

/-- The second accumulator's update likewise. -/
theorem pay3_apply (v15 : FVec Ideal S512x1024 .f32) (v43 : FVec Ideal S512x128 .f32) (acc : Vec Ideal S1x512x128 .f32)
    (u : Fin 1) (h : Fin 512) (l : Fin 128) :
    k0_pay3 v15 v43 acc (ix3 u h l) = acc (ix3 u h l) + addf v43 (mulf (k0_pay1 v15) (k0_pay1 v15)) (ix2 h l) := by
  unfold k0_pay3
  exact congrArg₂ (· + ·) (congrFun (shapeCast_self acc shapeCasts_S1x512x128_S1x512x128) (ix3 u h l))
    (shapeCast_ab_1ab_apply (addf v43 (mulf (k0_pay1 v15) (k0_pay1 v15))) shapeCasts_S512x128_S1x512x128 u h l)

/-- The blocks a group's first point stores are zero everywhere. -/
theorem zero3 (u : Fin 1) (h : Fin 512) (l : Fin 128) : (k0_pay4 (F := Ideal)) (ix3 u h l) = 0 := by
  unfold k0_pay4
  exact Ideal.ofBits_zero_f32
theorem zero4 (u : Fin 1) (h : Fin 512) (l : Fin 128) : (k0_pay5 (F := Ideal)) (ix3 u h l) = 0 := by
  unfold k0_pay5
  exact Ideal.ofBits_zero_f32

/-- A later point of a group: the accumulator's entry plus the row's lane partial there. -/
theorem stepB3 (x0 : Vec Ideal S1x80x1024 .f32) (x1 : Vec Ideal S512x80 .f32) (x2 : Vec Ideal S512x1 .f32)
    (acc : Vec Ideal S1x512x128 .f32) (u : Fin 1) (h : Fin 512) (l : Fin 128) :
    k0_pay2 (k0_pay6 x1 x2 x0) (k0_pay14 x1 x2 x0) acc (ix3 u h l) = acc (ix3 u h l) + rowSum x1 x2 x0 (ix2 h l) :=
  pay2_apply (k0_pay6 x1 x2 x0) (k0_pay14 x1 x2 x0) acc u h l
theorem stepB4 (x0 : Vec Ideal S1x80x1024 .f32) (x1 : Vec Ideal S512x80 .f32) (x2 : Vec Ideal S512x1 .f32)
    (acc : Vec Ideal S1x512x128 .f32) (u : Fin 1) (h : Fin 512) (l : Fin 128) :
    k0_pay3 (k0_pay6 x1 x2 x0) (k0_pay15 x1 x2 x0) acc (ix3 u h l) = acc (ix3 u h l) + rowSq x1 x2 x0 (ix2 h l) :=
  pay3_apply (k0_pay6 x1 x2 x0) (k0_pay15 x1 x2 x0) acc u h l

/-- A group's first point: zero plus the row's lane partial. -/
theorem stepA3 (x0 : Vec Ideal S1x80x1024 .f32) (x1 : Vec Ideal S512x80 .f32) (x2 : Vec Ideal S512x1 .f32)
    (u : Fin 1) (h : Fin 512) (l : Fin 128) :
    k0_pay2 (k0_pay6 x1 x2 x0) (k0_pay14 x1 x2 x0) (k0_pay4 (F := Ideal)) (ix3 u h l) = rowSum x1 x2 x0 (ix2 h l) := by
  rw [stepB3, zero3, zero_add]
theorem stepA4 (x0 : Vec Ideal S1x80x1024 .f32) (x1 : Vec Ideal S512x80 .f32) (x2 : Vec Ideal S512x1 .f32)
    (u : Fin 1) (h : Fin 512) (l : Fin 128) :
    k0_pay3 (k0_pay6 x1 x2 x0) (k0_pay15 x1 x2 x0) (k0_pay5 (F := Ideal)) (ix3 u h l) = rowSq x1 x2 x0 (ix2 h l) := by
  rw [stepB4, zero4, zero_add]

/-! ## The blocks a grid point reads -/

/-- The printed index maps over the grid: point `t` reads row `t` of the input, the whole weight and bias arrays, and
    writes output block `t / 128`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 128 ∧ win0_3.index t (1 : Fin 3) = 0 ∧ win0_3.index t (2 : Fin 3) = 0
    ∧ win0_4.index t (0 : Fin 3) = t.val / 128 ∧ win0_4.index t (1 : Fin 3) = 0 ∧ win0_4.index t (2 : Fin 3) = 0 :=
  (by decide +kernel : ∀ t : Fin grid0.N, _)

theorem lt256 (t : Fin cfg0.N) : t.val < 256 := lt_of_lt_of_eq t.isLt N_0

/-- Point `t`'s input block is row `t` of the input array. -/
theorem iblk_x (c : Dev nD) (t : Fin cfg0.N) :
    (iblk0 V c 0 t : Vec Ideal S1x80x1024 .f32) = rowBlk (V c main_arg0) ⟨t.val, lt256 t⟩ := by
  obtain ⟨e0, e1, e2, -⟩ := idx_facts t
  funext j
  show V c main_arg0 (((cfg0.win 0).blk t).view.emb j) = V c main_arg0 (ix3 ⟨t.val, lt256 t⟩ (j 1) (j 2))
  refine congrArg (V c main_arg0) (funext fun a => Fin.ext ?_)
  match a with
  | ⟨0, _⟩ => show win0_0.index t (0 : Fin 3) * 1 + 1 * (j 0).val = t.val; have hj : (j 0).val < 1 := (j 0).isLt; omega
  | ⟨1, _⟩ => show win0_0.index t (1 : Fin 3) * 80 + 1 * (j 1).val = (j 1).val; omega
  | ⟨2, _⟩ => show win0_0.index t (2 : Fin 3) * 1024 + 1 * (j 2).val = (j 2).val; omega

/-- Its weight block is the whole weight array. -/
theorem iblk_w (c : Dev nD) (t : Fin cfg0.N) : (iblk0 V c 1 t : Vec Ideal S512x80 .f32) = V c main_v0 := by
  obtain ⟨-, -, -, e0, e1, -⟩ := idx_facts t
  funext j
  show V c main_v0 (((cfg0.win 1).blk t).view.emb j) = V c main_v0 j
  refine congrArg (V c main_v0) (funext fun a => Fin.ext ?_)
  match a with
  | ⟨0, _⟩ => show win0_1.index t (0 : Fin 2) * 512 + 1 * (j 0).val = (j 0).val; omega
  | ⟨1, _⟩ => show win0_1.index t (1 : Fin 2) * 80 + 1 * (j 1).val = (j 1).val; omega

/-- Its bias block is the whole bias array. -/
theorem iblk_b (c : Dev nD) (t : Fin cfg0.N) : (iblk0 V c 2 t : Vec Ideal S512x1 .f32) = V c main_v1 := by
  obtain ⟨-, -, -, -, -, e0, e1, -⟩ := idx_facts t
  funext j
  show V c main_v1 (((cfg0.win 2).blk t).view.emb j) = V c main_v1 j
  refine congrArg (V c main_v1) (funext fun a => Fin.ext ?_)
  match a with
  | ⟨0, _⟩ => show win0_2.index t (0 : Fin 2) * 512 + 1 * (j 0).val = (j 0).val; omega
  | ⟨1, _⟩ => show win0_2.index t (1 : Fin 2) * 1 + 1 * (j 1).val = (j 1).val; omega

/-! ## The accumulators after each point: running sums over the group's rows so far -/

/-- The lane partial of row `k` (rows are below 256; any natural is read modulo 256 so that no bound is carried). -/
def add3 (W : Vec Ideal S512x80 .f32) (B : Vec Ideal S512x1 .f32) (X : Vec Ideal S256x80x1024 .f32) (k : ℕ) :
    FVec Ideal S512x128 .f32 :=
  rowSum W B (rowBlk X ⟨k % 256, Nat.mod_lt k (by norm_num)⟩)

/-- The same for the squares. -/
def add4 (W : Vec Ideal S512x80 .f32) (B : Vec Ideal S512x1 .f32) (X : Vec Ideal S256x80x1024 .f32) (k : ℕ) :
    FVec Ideal S512x128 .f32 :=
  rowSq W B (rowBlk X ⟨k % 256, Nat.mod_lt k (by norm_num)⟩)

theorem row_eq (t : Fin cfg0.N) : (⟨t.val, lt256 t⟩ : Fin 256) = ⟨t.val % 256, Nat.mod_lt t.val (by norm_num)⟩ :=
  Fin.ext (Nat.mod_eq_of_lt (lt256 t)).symm

/-- What point `t` adds, over the blocks it reads, is row `t`'s lane partial of the arrays. -/
theorem rowSum_iblk (c : Dev nD) (t : Fin cfg0.N) :
    rowSum (F := Ideal) (iblk0 V c 1 t) (iblk0 V c 2 t) (iblk0 V c 0 t)
      = add3 (V c main_v0) (V c main_v1) (V c main_arg0) t.val := by
  unfold add3
  rw [← row_eq t]
  exact congr (congr (congrArg (rowSum (F := Ideal)) (iblk_w V c t)) (iblk_b V c t)) (iblk_x V c t)
theorem rowSq_iblk (c : Dev nD) (t : Fin cfg0.N) :
    rowSq (F := Ideal) (iblk0 V c 1 t) (iblk0 V c 2 t) (iblk0 V c 0 t)
      = add4 (V c main_v0) (V c main_v1) (V c main_arg0) t.val := by
  unfold add4
  rw [← row_eq t]
  exact congr (congr (congrArg (rowSq (F := Ideal)) (iblk_w V c t)) (iblk_b V c t)) (iblk_x V c t)

/-- A group's first point leaves its row's lane partial. -/
theorem pt3_A (c : Dev nD) (t : Fin cfg0.N) (h0 : t.val % 128 = 0) (u : Fin 1) (h : Fin 512) (l : Fin 128) :
    (outsAt0 V c t.val t.isLt).1 (ix3 u h l) = add3 (V c main_v0) (V c main_v1) (V c main_arg0) t.val (ix2 h l) := by
  rw [outsAt0_A V c t h0]
  dsimp only
  refine (congrFun (out_A3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
    (iblk0 V c 0 t) (iblk0 V c 1 t) (iblk0 V c 2 t)) (ix3 u h l)).trans ?_
  refine (stepA3 (iblk0 V c 0 t) (iblk0 V c 1 t) (iblk0 V c 2 t) u h l).trans ?_
  exact congrFun (rowSum_iblk V c t) (ix2 h l)
theorem pt4_A (c : Dev nD) (t : Fin cfg0.N) (h0 : t.val % 128 = 0) (u : Fin 1) (h : Fin 512) (l : Fin 128) :
    (outsAt0 V c t.val t.isLt).2 (ix3 u h l) = add4 (V c main_v0) (V c main_v1) (V c main_arg0) t.val (ix2 h l) := by
  rw [outsAt0_A V c t h0]
  dsimp only
  refine (congrFun (out_A4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
    (iblk0 V c 0 t) (iblk0 V c 1 t) (iblk0 V c 2 t)) (ix3 u h l)).trans ?_
  refine (stepA4 (iblk0 V c 0 t) (iblk0 V c 1 t) (iblk0 V c 2 t) u h l).trans ?_
  exact congrFun (rowSq_iblk V c t) (ix2 h l)

/-- Any other point adds its row's lane partial to what the point before left. -/
theorem pt3_B (c : Dev nD) (t : Fin cfg0.N) (h0 : ¬t.val % 128 = 0) (u : Fin 1) (h : Fin 512) (l : Fin 128) :
    (outsAt0 V c t.val t.isLt).1 (ix3 u h l)
      = (outsAt0 V c (t.val - 1) (Nat.lt_of_le_of_lt (Nat.sub_le _ _) t.isLt)).1 (ix3 u h l) + add3 (V c main_v0) (V c main_v1) (V c main_arg0) t.val (ix2 h l) := by
  rw [outsAt0_B V c t h0]
  dsimp only
  refine (congrFun (out_B3 (F := Ideal) c (grid0.coords t) (ms0_0 t) (hs0_0 t) (ms0_1 t) (hs0_1 t) (ms0_2 t) (hs0_2 t) (ms0_3 t) (hs0_3 t) (ms0_4 t) (hs0_4 t) (fun hc => h0 ((hcond0_0 t).mp hc))
    (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) (ix3 u h l)).trans ?_
  refine (stepB3 (iblk0 V c 0 t) (iblk0 V c 1 t) (iblk0 V c 2 t) (outsAt0 V c (t.val - 1) (Nat.lt_of_le_of_lt (Nat.sub_le _ _) t.isLt)).1 u h l).trans ?_
  exact congrArg ((outsAt0 V c (t.val - 1) (Nat.lt_of_le_of_lt (Nat.sub_le _ _) t.isLt)).1 (ix3 u h l) + ·) (congrFun (rowSum_iblk V c t) (ix2 h l))
theorem pt4_B (c : Dev nD) (t : Fin cfg0.N) (h0 : ¬t.val % 128 = 0) (u : Fin 1) (h : Fin 512) (l : Fin 128) :
    (outsAt0 V c t.val t.isLt).2 (ix3 u h l)
      = (outsAt0 V c (t.val - 1) (Nat.lt_of_le_of_lt (Nat.sub_le _ _) t.isLt)).2 (ix3 u h l) + add4 (V c main_v0) (V c main_v1) (V c main_arg0) t.val (ix2 h l) := by
  rw [outsAt0_B V c t h0]
  dsimp only
  refine (congrFun (out_B4 (F := Ideal) c (grid0.coords t) (ms0_0 t) (hs0_0 t) (ms0_1 t) (hs0_1 t) (ms0_2 t) (hs0_2 t) (ms0_3 t) (hs0_3 t) (ms0_4 t) (hs0_4 t) (fun hc => h0 ((hcond0_0 t).mp hc))
    (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) (ix3 u h l)).trans ?_
  refine (stepB4 (iblk0 V c 0 t) (iblk0 V c 1 t) (iblk0 V c 2 t) (outsAt0 V c (t.val - 1) (Nat.lt_of_le_of_lt (Nat.sub_le _ _) t.isLt)).2 u h l).trans ?_
  exact congrArg ((outsAt0 V c (t.val - 1) (Nat.lt_of_le_of_lt (Nat.sub_le _ _) t.isLt)).2 (ix3 u h l) + ·) (congrFun (rowSq_iblk V c t) (ix2 h l))

/-- After point `n` the first accumulator holds, entry by entry, the sum of the lane partials of the rows of `n`'s group
    up to `n`: by induction on the point, a group's first point restarting the sum. -/
theorem run3 (c : Dev nD) (u : Fin 1) (h : Fin 512) (l : Fin 128) : ∀ (n : ℕ) (hn : n < cfg0.N),
    (outsAt0 V c n hn).1 (ix3 u h l)
      = ∑ s ∈ Finset.range (n % 128 + 1), add3 (V c main_v0) (V c main_v1) (V c main_arg0) (n - n % 128 + s) (ix2 h l)
  | 0, hn => by
    rw [pt3_A V c ⟨0, hn⟩ rfl u h l]
    simp
  | n + 1, hn => by
    by_cases h0 : (n + 1) % 128 = 0
    · rw [pt3_A V c ⟨n + 1, hn⟩ h0 u h l, h0]
      simp
    · have hn' : n < cfg0.N := Nat.lt_of_succ_lt hn
      have e1 : (n + 1) % 128 = n % 128 + 1 := by omega
      have e2 : n + 1 - (n + 1) % 128 = n - n % 128 := by omega
      have e3 : n - n % 128 + (n % 128 + 1) = n + 1 := by omega
      rw [pt3_B V c ⟨n + 1, hn⟩ h0 u h l]
      show (outsAt0 V c n hn').1 (ix3 u h l) + add3 (V c main_v0) (V c main_v1) (V c main_arg0) (n + 1) (ix2 h l) = _
      rw [run3 c u h l n hn', e2, e1, Finset.sum_range_succ _ (n % 128 + 1), e3]

/-- The same for the second accumulator. -/
theorem run4 (c : Dev nD) (u : Fin 1) (h : Fin 512) (l : Fin 128) : ∀ (n : ℕ) (hn : n < cfg0.N),
    (outsAt0 V c n hn).2 (ix3 u h l)
      = ∑ s ∈ Finset.range (n % 128 + 1), add4 (V c main_v0) (V c main_v1) (V c main_arg0) (n - n % 128 + s) (ix2 h l)
  | 0, hn => by
    rw [pt4_A V c ⟨0, hn⟩ rfl u h l]
    simp
  | n + 1, hn => by
    by_cases h0 : (n + 1) % 128 = 0
    · rw [pt4_A V c ⟨n + 1, hn⟩ h0 u h l, h0]
      simp
    · have hn' : n < cfg0.N := Nat.lt_of_succ_lt hn
      have e1 : (n + 1) % 128 = n % 128 + 1 := by omega
      have e2 : n + 1 - (n + 1) % 128 = n - n % 128 := by omega
      have e3 : n - n % 128 + (n % 128 + 1) = n + 1 := by omega
      rw [pt4_B V c ⟨n + 1, hn⟩ h0 u h l]
      show (outsAt0 V c n hn').2 (ix3 u h l) + add4 (V c main_v0) (V c main_v1) (V c main_arg0) (n + 1) (ix2 h l) = _
      rw [run4 c u h l n hn', e2, e1, Finset.sum_range_succ _ (n % 128 + 1), e3]

/-! ## The write-backs and the result arrays -/

/-- At a group's last point the first accumulator holds the group's total. -/
theorem fl3 (c : Dev nD) (t : Fin cfg0.N) (hf : t.val % 128 = 127) (u : Fin 1) (h : Fin 512) (l : Fin 128)
    (g : Fin 2) (hg : g.val = t.val / 128) :
    (outsAt0 V c t.val t.isLt).1 (ix3 u h l) = sumsAt (V c main_v0) (V c main_v1) (V c main_arg0) g h l := by
  have e : t.val % 128 + 1 = 128 := by omega
  rw [run3 V c u h l t.val t.isLt, e, Finset.sum_range]
  unfold sumsAt
  refine Finset.sum_congr rfl fun n _ => ?_
  exact congrArg (fun r => rowSum (V c main_v0) (V c main_v1) (rowBlk (V c main_arg0) r) (ix2 h l))
    (Fin.ext (by show (t.val - t.val % 128 + n.val) % 256 = 128 * g.val + n.val; have := lt256 t; have := n.isLt; omega))

theorem fl3' (c : Dev nD) (t : Fin cfg0.N) (hf : t.val % 128 = 127) (y : S1x512x128.Idx)
    (g : Fin 2) (h : Fin 512) (l : Fin 128) (hg : g.val = t.val / 128) (hh : h = y 1) (hl : l = y 2) :
    (outsAt0 V c t.val t.isLt).1 y = sumsAt (V c main_v0) (V c main_v1) (V c main_arg0) g h l := by
  subst hh hl
  have e := fl3 V c t hf (y 0) (y 1) (y 2) g hg
  exact (congrArg (fun z => (outsAt0 V c t.val t.isLt).1 z) (eq_ix3 y)).trans e

/-- The same for the second accumulator. -/
theorem fl4 (c : Dev nD) (t : Fin cfg0.N) (hf : t.val % 128 = 127) (u : Fin 1) (h : Fin 512) (l : Fin 128)
    (g : Fin 2) (hg : g.val = t.val / 128) :
    (outsAt0 V c t.val t.isLt).2 (ix3 u h l) = sumsqAt (V c main_v0) (V c main_v1) (V c main_arg0) g h l := by
  have e : t.val % 128 + 1 = 128 := by omega
  rw [run4 V c u h l t.val t.isLt, e, Finset.sum_range]
  unfold sumsqAt
  refine Finset.sum_congr rfl fun n _ => ?_
  exact congrArg (fun r => rowSq (V c main_v0) (V c main_v1) (rowBlk (V c main_arg0) r) (ix2 h l))
    (Fin.ext (by show (t.val - t.val % 128 + n.val) % 256 = 128 * g.val + n.val; have := lt256 t; have := n.isLt; omega))

theorem fl4' (c : Dev nD) (t : Fin cfg0.N) (hf : t.val % 128 = 127) (y : S1x512x128.Idx)
    (g : Fin 2) (h : Fin 512) (l : Fin 128) (hg : g.val = t.val / 128) (hh : h = y 1) (hl : l = y 2) :
    (outsAt0 V c t.val t.isLt).2 y = sumsqAt (V c main_v0) (V c main_v1) (V c main_arg0) g h l := by
  subst hh hl
  have e := fl4 V c t hf (y 0) (y 1) (y 2) g hg
  exact (congrArg (fun z => (outsAt0 V c t.val t.isLt).2 z) (eq_ix3 y)).trans e

/-- What a group's last point writes back is its block of the array of group totals. -/
theorem flushed3_eq (c : Dev nD) (t : Fin cfg0.N) (hf : (cfg0.win 3).flush t = true) :
    (dat0 V c).flushed 3 t = ((cfg0.win 3).blk t).view.read (Elt Ideal)
      (fun i : S2x512x128.Idx => sumsAt (V c main_v0) (V c main_v1) (V c main_arg0) (i 0) (i 1) (i 2)) := by
  have h127 : t.val % 128 = 127 := (flush0_3 t).mp hf
  obtain ⟨-, -, -, -, -, -, -, e30, e31, e32, e40, e41, e42⟩ := idx_facts t
  show (cfg0.win 3).cut (grid0.coords t) ((dat0 V c).after 3 t) = _
  rw [after0_3]
  funext y
  show (outsAt0 V c t.val t.isLt).1 y = sumsAt (V c main_v0) (V c main_v1) (V c main_arg0)
    ((((cfg0.win 3).blk t).view.emb y) 0) ((((cfg0.win 3).blk t).view.emb y) 1) ((((cfg0.win 3).blk t).view.emb y) 2)
  refine fl3' V c t h127 y _ _ _ ?_ (Fin.ext ?_) (Fin.ext ?_)
  · show win0_3.index t (0 : Fin 3) * 1 + 1 * (y 0).val = t.val / 128
    have hy : (y 0).val < 1 := (y 0).isLt
    omega
  · show win0_3.index t (1 : Fin 3) * 512 + 1 * (y 1).val = (y 1).val
    omega
  · show win0_3.index t (2 : Fin 3) * 128 + 1 * (y 2).val = (y 2).val
    omega

/-- Every entry of the result lies in the block written back after its group's last row. -/
theorem cover3 (i : S2x512x128.Idx) :
    ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 128 := (i 2).isLt
  have hN : cfg0.N = 256 := N_0
  obtain ⟨t, ht⟩ : ∃ t : Fin cfg0.N, t.val = 128 * (i 0).val + 127 := ⟨⟨128 * (i 0).val + 127, by omega⟩, rfl⟩
  obtain ⟨-, -, -, -, -, -, -, e30, e31, e32, e40, e41, e42⟩ := idx_facts t
  refine ⟨t, (flush0_3 t).mpr (by omega), ?_⟩
  show i ∈ ((View.whole main_v2_0).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 128 ≤ (i 2).val ∧ (i 2).val < win0_3.index t (2 : Fin 3) * 128 + 128
    omega

/-- The same for the second result. -/
theorem flushed4_eq (c : Dev nD) (t : Fin cfg0.N) (hf : (cfg0.win 4).flush t = true) :
    (dat0 V c).flushed 4 t = ((cfg0.win 4).blk t).view.read (Elt Ideal)
      (fun i : S2x512x128.Idx => sumsqAt (V c main_v0) (V c main_v1) (V c main_arg0) (i 0) (i 1) (i 2)) := by
  have h127 : t.val % 128 = 127 := (flush0_4 t).mp hf
  obtain ⟨-, -, -, -, -, -, -, e30, e31, e32, e40, e41, e42⟩ := idx_facts t
  show (cfg0.win 4).cut (grid0.coords t) ((dat0 V c).after 4 t) = _
  rw [after0_4]
  funext y
  show (outsAt0 V c t.val t.isLt).2 y = sumsqAt (V c main_v0) (V c main_v1) (V c main_arg0)
    ((((cfg0.win 4).blk t).view.emb y) 0) ((((cfg0.win 4).blk t).view.emb y) 1) ((((cfg0.win 4).blk t).view.emb y) 2)
  refine fl4' V c t h127 y _ _ _ ?_ (Fin.ext ?_) (Fin.ext ?_)
  · show win0_4.index t (0 : Fin 3) * 1 + 1 * (y 0).val = t.val / 128
    have hy : (y 0).val < 1 := (y 0).isLt
    omega
  · show win0_4.index t (1 : Fin 3) * 512 + 1 * (y 1).val = (y 1).val
    omega
  · show win0_4.index t (2 : Fin 3) * 128 + 1 * (y 2).val = (y 2).val
    omega

/-- Every entry of the result lies in the block written back after its group's last row. -/
theorem cover4 (i : S2x512x128.Idx) :
    ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 128 := (i 2).isLt
  have hN : cfg0.N = 256 := N_0
  obtain ⟨t, ht⟩ : ∃ t : Fin cfg0.N, t.val = 128 * (i 0).val + 127 := ⟨⟨128 * (i 0).val + 127, by omega⟩, rfl⟩
  obtain ⟨-, -, -, -, -, -, -, e30, e31, e32, e40, e41, e42⟩ := idx_facts t
  refine ⟨t, (flush0_4 t).mpr (by omega), ?_⟩
  show i ∈ ((View.whole main_v2_1).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 128 ≤ (i 2).val ∧ (i 2).val < win0_4.index t (2 : Fin 3) * 128 + 128
    omega

theorem sums_eq (c : Dev nD) :
    (dat0 (F := Ideal) V c).arrAt 3 cfg0.N
      = (fun i : S2x512x128.Idx => sumsAt (V c main_v0) (V c main_v1) (V c main_arg0) (i 0) (i 1) (i 2)) := by
  exact (dat0 (F := Ideal) V c).arrAt_eq_of_cover 3 _ (flushed3_eq V c) cover3

theorem sumsqs_eq (c : Dev nD) :
    (dat0 (F := Ideal) V c).arrAt 4 cfg0.N
      = (fun i : S2x512x128.Idx => sumsqAt (V c main_v0) (V c main_v1) (V c main_arg0) (i 0) (i 1) (i 2)) := by
  exact (dat0 (F := Ideal) V c).arrAt_eq_of_cover 4 _ (flushed4_eq V c) cover4

end Cert.KernelIdeal.Stats

end
-- ==== Proof.NormK.lean ====
/-
  The second pass, read as a value. The normalising pipeline walks the batch axis of `x : [256, 80, 1024]` one row
  per grid point: point `t` reads row `t` of `x` and the whole of the scaled weights, the scaled bias and the scaled
  mean, and stores `relu (W_s · x_t + b_s) - m_s` as row `t` of the `[256, 512, 1024]` result. Every point writes its
  whole block and nothing is carried from one point to the next, so the result array after the last point is, row by
  row, that one function of the row: this module proves it from the blocks each point reads and writes, for any
  contents of the arrays at the pipeline's entry and any float instance. The arithmetic of a row stays closed.
-/
import proofs.«158665_g2000400206852984_pallasbulk_1224_4_alg».proof.Proof.Rows
import proofs.«158665_g2000400206852984_pallasbulk_1224_4_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open Cert.Rows

namespace Cert.KernelIdeal.Norm

open Cert.KernelIdeal Cert.KernelIdeal.Gen

variable {F : FTy → Type} [FloatOps F]
variable (V : (c : Dev nD) → (b : Ref sig .tc) → Buf (Elt F) ((c : Thread nD τ).loc b))

/-- The zero offsets of a rank-3 and of a rank-2 buffer, as constant functions. -/
theorem zero3 : (![0, 0, 0] : Fin 3 → Nat) = fun _ => 0 := funext fun a => by fin_cases a <;> rfl
theorem zero2 : (![0, 0] : Fin 2 → Nat) = fun _ => 0 := funext fun a => by fin_cases a <;> rfl

/-- The block indices over the grid: the window of `x` and the window of the result sit at row `t` of the batch axis
    at point `t`; the weights, the bias and the mean have one block, at index zero. -/
theorem block_indices : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The row of `x` that grid point `t` reads, and of the result that it writes. -/
def rowOf (t : Fin cfg1.N) : Fin 256 := ⟨t.val, lt_of_lt_of_eq t.isLt N_1⟩

/-- The result array, index by index: entry `(n, h, l)` is entry `(0, h, l)` of the row function at row `n` of `x`. -/
def normOut (c : Dev nD) : S256x512x1024.Idx → Elt F .f32 :=
  fun i => k1_pay1 (V c main_v19) (V c main_v20) (V c main_v21) (rowBlk (V c main_arg0) (i 0))
    (ix3 (0 : Fin 1) (show Fin 512 from i 1) (show Fin 1024 from i 2))

/-- The weights' one block is the whole array. -/
theorem weights_blk (c : Dev nD) (t : Fin cfg1.N) : (iblk1 V c 1 t : Vec F S512x80 .f32) = V c main_v19 := by
  obtain ⟨-, -, -, e0, e1, -⟩ := block_indices t
  funext y
  unfold iblk1
  rw [View.read_apply]
  show V c main_v19 (((cfg1.win 1).blk t).view.emb y) = V c main_v19 y
  congr 1
  funext a
  apply Fin.ext
  match a with
  | ⟨0, _⟩ => show win1_1.index t (0 : Fin 2) * 512 + 1 * (y 0).val = (y 0).val; omega
  | ⟨1, _⟩ => show win1_1.index t (1 : Fin 2) * 80 + 1 * (y 1).val = (y 1).val; omega

/-- The bias's one block is the whole array. -/
theorem bias_blk (c : Dev nD) (t : Fin cfg1.N) : (iblk1 V c 2 t : Vec F S512x1 .f32) = V c main_v20 := by
  obtain ⟨-, -, -, -, -, e0, e1, -⟩ := block_indices t
  funext y
  unfold iblk1
  rw [View.read_apply]
  show V c main_v20 (((cfg1.win 2).blk t).view.emb y) = V c main_v20 y
  congr 1
  funext a
  apply Fin.ext
  match a with
  | ⟨0, _⟩ => show win1_2.index t (0 : Fin 2) * 512 + 1 * (y 0).val = (y 0).val; omega
  | ⟨1, _⟩ => show win1_2.index t (1 : Fin 2) * 1 + 1 * (y 1).val = (y 1).val; omega

/-- The mean's one block is the whole array. -/
theorem mean_blk (c : Dev nD) (t : Fin cfg1.N) : (iblk1 V c 3 t : Vec F S512x1 .f32) = V c main_v21 := by
  obtain ⟨-, -, -, -, -, -, -, e0, e1, -⟩ := block_indices t
  funext y
  unfold iblk1
  rw [View.read_apply]
  show V c main_v21 (((cfg1.win 3).blk t).view.emb y) = V c main_v21 y
  congr 1
  funext a
  apply Fin.ext
  match a with
  | ⟨0, _⟩ => show win1_3.index t (0 : Fin 2) * 512 + 1 * (y 0).val = (y 0).val; omega
  | ⟨1, _⟩ => show win1_3.index t (1 : Fin 2) * 1 + 1 * (y 1).val = (y 1).val; omega

/-- The block of `x` at point `t` is row `t`. -/
theorem x_blk (c : Dev nD) (t : Fin cfg1.N) :
    (iblk1 V c 0 t : Vec F S1x80x1024 .f32) = rowBlk (V c main_arg0) (rowOf t) := by
  obtain ⟨e0, e1, e2, -⟩ := block_indices t
  funext y
  unfold iblk1 rowBlk
  rw [View.read_apply]
  show V c main_arg0 (((cfg1.win 0).blk t).view.emb y) = V c main_arg0 _
  congr 1
  funext a
  apply Fin.ext
  have hy : (y 0).val < 1 := (y 0).isLt
  match a with
  | ⟨0, _⟩ => show win1_0.index t (0 : Fin 3) * 1 + 1 * (y 0).val = t.val; omega
  | ⟨1, _⟩ => show win1_0.index t (1 : Fin 3) * 80 + 1 * (y 1).val = (y 1).val; omega
  | ⟨2, _⟩ => show win1_0.index t (2 : Fin 3) * 1024 + 1 * (y 2).val = (y 2).val; omega

/-- One entry of a row's result, placed in the array: entry `j` of the row function at row `r` is the array's
    entry at any index `i` whose batch coordinate is `r` and whose other two coordinates are `j`'s. -/
theorem entry_eq (W : Vec F S512x80 .f32) (B M : Vec F S512x1 .f32) (X : S256x80x1024.Idx → Elt F .f32)
    (r : Fin 256) (j : S1x512x1024.Idx) (i : S256x512x1024.Idx)
    (h0 : (i 0).val = r.val) (h1 : (i 1).val = (j 1).val) (h2 : (i 2).val = (j 2).val) :
    k1_pay1 W B M (rowBlk X r) j
      = k1_pay1 W B M (rowBlk X (i 0)) (ix3 (0 : Fin 1) (show Fin 512 from i 1) (show Fin 1024 from i 2)) := by
  have hr : (i 0 : Fin 256) = r := Fin.ext h0
  have hj : j = ix3 (0 : Fin 1) (show Fin 512 from i 1) (show Fin 1024 from i 2) := by
    funext a
    apply Fin.ext
    have hj0 : (j 0).val < 1 := (j 0).isLt
    match a with
    | ⟨0, _⟩ => show (j 0).val = 0; omega
    | ⟨1, _⟩ => exact h1.symm
    | ⟨2, _⟩ => exact h2.symm
  rw [hr, ← hj]

/-- What point `t` writes back is block `t` of the result array. -/
theorem flushed_eq (c : Dev nD) (t : Fin cfg1.N) :
    (dat1 (F := F) V c).flushed 4 t = ((cfg1.win 4).blk t).view.read (Elt F) (normOut V c) := by
  show (cfg1.win 4).cut (grid1.coords t) ((dat1 V c).after 4 t) = _
  rw [after1_4]
  unfold out1_4
  rw [View.canon_unit_zero zero3]
  simp only [View.ld_unit_zero (S := S512x80) zero2, View.ld_unit_zero (S := S512x1) zero2,
    View.ld_unit_zero (S := S1x80x1024) zero3]
  rw [weights_blk, bias_blk, mean_blk, x_blk]
  obtain ⟨-, -, -, -, -, -, -, -, -, e0, e1, e2⟩ := block_indices t
  funext j
  have hj0 : (j 0).val < 1 := (j 0).isLt
  refine entry_eq (V c main_v19) (V c main_v20) (V c main_v21) (V c main_arg0) (rowOf t)
    ((win1 4).xinj (grid1.coords t) j) (((cfg1.win 4).blk t).view.emb j) ?_ ?_ ?_
  · show win1_4.index t (0 : Fin 3) * 1 + 1 * (j 0).val = t.val
    omega
  · show win1_4.index t (1 : Fin 3) * 512 + 1 * (j 1).val = (j 1).val
    omega
  · show win1_4.index t (2 : Fin 3) * 1024 + 1 * (j 2).val = (j 2).val
    omega

/-- An index of the result array is in point `t`'s block iff each coordinate is in the block's range on its axis. -/
theorem mem_blk (t : Fin cfg1.N) (i : S256x512x1024.Idx) :
    i ∈ ((cfg1.win 4).blk t).view.set ↔ ∀ a : Fin 3, win1_4.index t a * S1x512x1024.size a ≤ (i a).val
      ∧ (i a).val < win1_4.index t a * S1x512x1024.size a + S1x512x1024.size a := by
  show i ∈ ((View.whole main_v22).slice (win1_4.rect t)).set ↔ _
  rw [View.set_slice_whole, Rect.mem_set_unit]
  exact Iff.rfl

/-- The blocks cover the result array: the index `(n, h, l)` is in the block of the point that walks row `n`. -/
theorem covered (i : S256x512x1024.Idx) :
    ∃ t : Fin cfg1.N, (cfg1.win 4).flush t = true ∧ i ∈ ((cfg1.win 4).blk t).view.set := by
  have h0 : (i 0).val < 256 := (i 0).isLt
  have h1 : (i 1).val < 512 := (i 1).isLt
  have h2 : (i 2).val < 1024 := (i 2).isLt
  obtain ⟨t, ht⟩ : ∃ t : Fin cfg1.N, t.val = (i 0).val := ⟨⟨(i 0).val, lt_of_lt_of_eq h0 N_1.symm⟩, rfl⟩
  obtain ⟨-, -, -, -, -, -, -, -, -, e0, e1, e2⟩ := block_indices t
  refine ⟨t, flush1_4 t, ?_⟩
  rw [mem_blk]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 512 ≤ (i 1).val ∧ (i 1).val < win1_4.index t (1 : Fin 3) * 512 + 512
    omega
  | ⟨2, _⟩ =>
    show win1_4.index t (2 : Fin 3) * 1024 ≤ (i 2).val ∧ (i 2).val < win1_4.index t (2 : Fin 3) * 1024 + 1024
    omega

/-- Row `n` of the result is the second pass's payload of the scaled weights, the scaled bias, the scaled mean and
    row `n` of `x`: `relu (W_s · x_n + b_s) - m_s`. -/
theorem out_eq (c : Dev nD) :
    (dat1 (F := F) V c).arrAt 4 cfg1.N
      = (fun i : S256x512x1024.Idx =>
          k1_pay1 (V c main_v19) (V c main_v20) (V c main_v21) (rowBlk (V c main_arg0) (i 0))
            (ix3 (0 : Fin 1) (show Fin 512 from i 1) (show Fin 1024 from i 2))) :=
  (dat1 (F := F) V c).arrAt_eq_of_cover 4 (normOut V c) (fun t _ => flushed_eq V c t) covered

end Cert.KernelIdeal.Norm

end
-- ==== Proof.HostK.lean ====
/-
  The host side of this program, and its result as ONE function of the three arguments.

  Between the passes the host reduces the two arrays of lane partials over their first and last axes to the channel
  sums `s` (of the activations) and `q` (of their squares), and forms, per channel: the mean `s / 262144`; the
  inverse deviation `rsqrt (max (q / 262144 - mean²) 0 + ε)`; and the scaled weights `W · inv`, scaled bias `b · inv`
  and scaled mean `mean · inv` that the second pass reads. Here each buffer the second pass reads is traced back
  through the fold of boundary contents to the launch arrays (a host stretch applies its operations; a pipeline
  leaves its inputs as they were and its outputs at what the first pass's value module says), so the result array
  is the second pass's payload of those, row by row.
-/
import proofs.«158665_g2000400206852984_pallasbulk_1224_4_alg».proof.Proof.Rows
import proofs.«158665_g2000400206852984_pallasbulk_1224_4_alg».proof.Proof.Gen.KernelIdeal.Frame
import proofs.«158665_g2000400206852984_pallasbulk_1224_4_alg».proof.Proof.StatsK
import proofs.«158665_g2000400206852984_pallasbulk_1224_4_alg».proof.Proof.NormK
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.StableHlo
open Idealize.ShloMosaic.Pipeline (Dat)
open Cert.Rows

namespace Cert.KernelIdeal.Host

open Cert.KernelIdeal Cert.KernelIdeal.Gen Cert.KernelIdeal.Stats

/-! ## The host's arithmetic between the passes, per channel -/

section Arithmetic
variable {F : FTy → Type} [FloatOps F]

/-- A channel sum over the `256 · 1024` entries of the channel, divided by their number (as a `[512, 1]` column). -/
def chanMean (s : FVec F S512 .f32) : FVec F S512x1 .f32 :=
  Host.divf (shapeCast S512x1 s shapeCasts_S512_S512x1)
    (broadcastInDim S512x1 ![] bcast_S_S512x1 (constant S_ .f32 0x48800000#32))

/-- The inverse deviation: `rsqrt (max (E[y²] - E[y]²) 0 + ε)`. -/
def chanInv (s q : FVec F S512 .f32) : FVec F S512x1 .f32 :=
  Host.rsqrt (addf
    (maximumf (subf (chanMean q) (mulf (chanMean s) (chanMean s)))
      (broadcastInDim S512x1 ![] bcast_S_S512x1 (constant S_ .f32 0x00000000#32)))
    (broadcastInDim S512x1 ![] bcast_S_S512x1 (constant S_ .f32 0x3727C5AC#32)))

/-- The weights with each channel's row scaled by its inverse deviation. -/
def scaledW (W : FVec F S512x80 .f32) (s q : FVec F S512 .f32) : FVec F S512x80 .f32 :=
  mulf W (broadcastInDim S512x80 ![0, 1] bcast_S512x1_S512x80_0_1 (chanInv s q))

/-- The bias scaled likewise. -/
def scaledB (B : FVec F S512x1 .f32) (s q : FVec F S512 .f32) : FVec F S512x1 .f32 := mulf B (chanInv s q)

/-- The mean scaled likewise. -/
def scaledM (s q : FVec F S512 .f32) : FVec F S512x1 .f32 := mulf (chanMean s) (chanInv s q)

/-- The result from the launch arrays' reshapes `W`, `B`, the input `X` and the two channel sums: row `n` is the second
    pass's payload `relu (W_s · x_n + b_s) - m_s`. -/
def outOf (X : Vec F S256x80x1024 .f32) (W : FVec F S512x80 .f32) (B : FVec F S512x1 .f32) (s q : FVec F S512 .f32) :
    Vec F S256x512x1024 .f32 :=
  fun i => k1_pay1 (scaledW W s q) (scaledB B s q) (scaledM s q) (rowBlk X (i 0))
    (ix3 (0 : Fin 1) (show Fin 512 from i 1) (show Fin 1024 from i 2))

end Arithmetic

/-! ## The channel sums of this program -/

/-- The channel sums as this program forms them: the host's sum over axes 0 and 2 of the first pass's block partials (each already the sum of 128 rows). -/
def chanSum (W : Vec Ideal S512x80 .f32) (B : Vec Ideal S512x1 .f32) (X : Vec Ideal S256x80x1024 .f32) : FVec Ideal S512 .f32 :=
  Host.reduceAdd (fun i : S2x512x128.Idx => sumsAt W B X (i 0) (i 1) (i 2)) (constant S_ .f32 0x00000000#32) reducesTo_S2x512x128_S512_d0_2 h_S_

/-- The same for the squares. -/
def chanSumSq (W : Vec Ideal S512x80 .f32) (B : Vec Ideal S512x1 .f32) (X : Vec Ideal S256x80x1024 .f32) : FVec Ideal S512 .f32 :=
  Host.reduceAdd (fun i : S2x512x128.Idx => sumsqAt W B X (i 0) (i 1) (i 2)) (constant S_ .f32 0x00000000#32) reducesTo_S2x512x128_S512_d0_2 h_S_

/-- The program's result as one function of its three arguments. -/
def final (X : Vec Ideal S256x80x1024 .f32) (A1 : Vec Ideal S512x80x1 .f32) (A2 : Vec Ideal S512 .f32) :
    Vec Ideal S256x512x1024 .f32 :=
  outOf X (shapeCast S512x80 A1 shapeCasts_S512x80x1_S512x80) (shapeCast S512x1 A2 shapeCasts_S512_S512x1)
    (chanSum (shapeCast S512x80 A1 shapeCasts_S512x80x1_S512x80) (shapeCast S512x1 A2 shapeCasts_S512_S512x1) X)
    (chanSumSq (shapeCast S512x80 A1 shapeCasts_S512x80x1_S512x80) (shapeCast S512x1 A2 shapeCasts_S512_S512x1) X)

/-! ## The boundary contents, read back -/

variable (m : (ℓ : Loc nD τ sig) → Buf (Elt Ideal) ℓ) (ρ : Dev nD → PrngReg)

/-- At the first pass's entry the weights' buffer holds the `[512, 80, 1]` argument reshaped to `[512, 80]`; -/
theorem V1_v0 (c : Dev nD) :
    V1 m ρ c main_v0 = shapeCast S512x80 (m ((c : Thread nD τ).loc main_arg1)) shapeCasts_S512x80x1_S512x80 := by
  show StableHlo.after hostOps0 (W0 m ρ c) (Proc.devRef .tc main_v0) = _
  after_results
  rfl

/-- the bias's buffer the `[512]` argument reshaped to `[512, 1]`; -/
theorem V1_v1 (c : Dev nD) :
    V1 m ρ c main_v1 = shapeCast S512x1 (m ((c : Thread nD τ).loc main_arg2)) shapeCasts_S512_S512x1 := by
  show StableHlo.after hostOps0 (W0 m ρ c) (Proc.devRef .tc main_v1) = _
  after_results
  rfl

/-- and the input is as launched. -/
theorem V1_arg0 (c : Dev nD) : V1 m ρ c main_arg0 = m ((c : Thread nD τ).loc main_arg0) := by
  show StableHlo.after hostOps0 (W0 m ρ c) (Proc.devRef .tc main_arg0) = _
  after_results

/-- The first pass leaves its three inputs as it found them, -/
theorem W2_arg0 (c : Dev nD) : W2 m ρ c (Proc.devRef .tc main_arg0) = V1 m ρ c main_arg0 :=
  (W2_arr m ρ c 0).trans (((dat0 (V1 m ρ) c).arrAt_in 0 rfl _).trans (A_eq0 (V1 m ρ) c 0))
theorem W2_v0 (c : Dev nD) : W2 m ρ c (Proc.devRef .tc main_v0) = V1 m ρ c main_v0 :=
  (W2_arr m ρ c 1).trans (((dat0 (V1 m ρ) c).arrAt_in 1 rfl _).trans (A_eq0 (V1 m ρ) c 1))
theorem W2_v1 (c : Dev nD) : W2 m ρ c (Proc.devRef .tc main_v1) = V1 m ρ c main_v1 :=
  (W2_arr m ρ c 2).trans (((dat0 (V1 m ρ) c).arrAt_in 2 rfl _).trans (A_eq0 (V1 m ρ) c 2))

/-- and its two results at the lane partials (the first pass's value module). -/
theorem W2_sums (c : Dev nD) :
    W2 m ρ c (Proc.devRef .tc main_v2_0) = (fun i : S2x512x128.Idx => sumsAt (V1 m ρ c main_v0) (V1 m ρ c main_v1) (V1 m ρ c main_arg0) (i 0) (i 1) (i 2)) :=
  (W2_arr m ρ c 3).trans (Stats.sums_eq (V1 m ρ) c)
theorem W2_sumsqs (c : Dev nD) :
    W2 m ρ c (Proc.devRef .tc main_v2_1) = (fun i : S2x512x128.Idx => sumsqAt (V1 m ρ c main_v0) (V1 m ρ c main_v1) (V1 m ρ c main_arg0) (i 0) (i 1) (i 2)) :=
  (W2_arr m ρ c 4).trans (Stats.sumsqs_eq (V1 m ρ) c)

/-- The second pass's scaled weights, as the host computes them from the contents the first pass leaves. -/
theorem V3_v19 (c : Dev nD) : V3 m ρ c main_v19
    = scaledW (F := Ideal) (W2 m ρ c (Proc.devRef .tc main_v0))
        (Host.reduceAdd (W2 m ρ c (Proc.devRef .tc main_v2_0)) (constant S_ .f32 0x00000000#32) reducesTo_S2x512x128_S512_d0_2 h_S_)
        (Host.reduceAdd (W2 m ρ c (Proc.devRef .tc main_v2_1)) (constant S_ .f32 0x00000000#32) reducesTo_S2x512x128_S512_d0_2 h_S_) := by
  show StableHlo.after hostOps1 (W2 m ρ c) (Proc.devRef .tc main_v19) = _
  after_results
  rfl

/-- Its scaled bias. -/
theorem V3_v20 (c : Dev nD) : V3 m ρ c main_v20
    = scaledB (F := Ideal) (W2 m ρ c (Proc.devRef .tc main_v1))
        (Host.reduceAdd (W2 m ρ c (Proc.devRef .tc main_v2_0)) (constant S_ .f32 0x00000000#32) reducesTo_S2x512x128_S512_d0_2 h_S_)
        (Host.reduceAdd (W2 m ρ c (Proc.devRef .tc main_v2_1)) (constant S_ .f32 0x00000000#32) reducesTo_S2x512x128_S512_d0_2 h_S_) := by
  show StableHlo.after hostOps1 (W2 m ρ c) (Proc.devRef .tc main_v20) = _
  after_results
  rfl

/-- Its scaled mean. -/
theorem V3_v21 (c : Dev nD) : V3 m ρ c main_v21
    = scaledM (F := Ideal)
        (Host.reduceAdd (W2 m ρ c (Proc.devRef .tc main_v2_0)) (constant S_ .f32 0x00000000#32) reducesTo_S2x512x128_S512_d0_2 h_S_)
        (Host.reduceAdd (W2 m ρ c (Proc.devRef .tc main_v2_1)) (constant S_ .f32 0x00000000#32) reducesTo_S2x512x128_S512_d0_2 h_S_) := by
  show StableHlo.after hostOps1 (W2 m ρ c) (Proc.devRef .tc main_v21) = _
  after_results
  rfl

/-- The host operations between the passes do not write the input. -/
theorem V3_arg0 (c : Dev nD) : V3 m ρ c main_arg0 = W2 m ρ c (Proc.devRef .tc main_arg0) := by
  show StableHlo.after hostOps1 (W2 m ρ c) (Proc.devRef .tc main_arg0) = _
  after_results

/-! ## The result -/

/-- The last boundary's contents at the result buffer: the program's closed function of its launch arguments. -/
theorem result_eq (c : Dev nD) :
    W4 m ρ c (Proc.devRef .tc main_v22)
      = final (m ((c : Thread nD τ).loc main_arg0)) (m ((c : Thread nD τ).loc main_arg1)) (m ((c : Thread nD τ).loc main_arg2)) := by
  refine (W4_arr m ρ c 4).trans ?_
  rw [Norm.out_eq (V3 m ρ) c, V3_v19, V3_v20, V3_v21, V3_arg0, W2_sums, W2_sumsqs, W2_v0, W2_v1, W2_arg0,
    V1_v0, V1_v1, V1_arg0]
  rfl

end Cert.KernelIdeal.Host

end
-- ==== Proof.StatsR.lean ====
/-
  Pass 1 of the reference, read as values at the exact reals.

  The reference walks the 256 rows of the input on a (256, 1) grid. At every point the second grid coordinate is 0, so
  the body first stores a zero block into each of its two result blocks, then adds to it the row's lane partial: with
  `y = relu (W · x + b)` the row's [512, 1024] activation, the sum of the eight [512, 128] column blocks of `y`
  (first result) and of `y * y` (second result). Nothing is carried from one point to the next, and point `t` writes
  its [1, 512, 128] block back as row `t` of a [256, 512, 128] array. This module proves that after the last point the
  two arrays hold, at `(r, h, l)`, the lane partial `rowSum` (resp. `rowSq`) of the weights, the bias and row `r` of
  the input, at `(h, l)`: over the extended reals `0 + s = s`, a [512, 128] array stored as a [1, 512, 128] block keeps
  its row-major positions, the weight and bias windows always show the whole arrays, the input window at point `t`
  shows row `t`, and the 256 written blocks tile the result arrays.
-/
import proofs.«158665_g2000400206852984_pallasbulk_1224_4_alg».proof.Proof.Rows
import proofs.«158665_g2000400206852984_pallasbulk_1224_4_alg».proof.Proof.Gen.ReferenceIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open Cert.Rows

namespace Cert.ReferenceIdeal.Stats

open Cert.ReferenceIdeal Cert.ReferenceIdeal.Gen

variable {F : FTy → Type} [FloatOps F]

/-- The lane partial of one row: with `y = relu (W · x + b)` the row's `[512, 1024]` activation, the sum of its eight
    `[512, 128]` column blocks, in the body's order (a zero block, the first seven blocks added in turn, then the eighth). -/
def rowSum (w : Vec F S512x80 .f32) (b : Vec F S512x1 .f32) (x : Vec F S1x80x1024 .f32) : FVec F S512x128 .f32 :=
  addf (k0_pay14 w b x) (k0_pay1 (k0_pay6 w b x))

/-- The same for the squares of the activation's entries. -/
def rowSq (w : Vec F S512x80 .f32) (b : Vec F S512x1 .f32) (x : Vec F S1x80x1024 .f32) : FVec F S512x128 .f32 :=
  addf (k0_pay15 w b x) (mulf (k0_pay1 (k0_pay6 w b x)) (k0_pay1 (k0_pay6 w b x)))

/-! ## What one point leaves in its two result blocks -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The first result block after the body: the zero block is stored, read back, and the row's lane partial of the
    activation is added to it; the three inputs are read whole. -/
theorem sumBlock_eq (c : Dev nD) (i : grid0.Coords) (arg2 : Memref sig .tc .vmem S1x80x1024 .f32) (harg2 : arg2.IsWhole) (arg3 : Memref sig .tc .vmem S512x80 .f32) (harg3 : arg3.IsWhole) (arg4 : Memref sig .tc .vmem S512x1 .f32) (harg4 : arg4.IsWhole) (arg5 : Memref sig .tc .vmem S1x512x128 .f32) (harg5 : arg5.IsWhole) (arg6 : Memref sig .tc .vmem S1x512x128 .f32) (harg6 : arg6.IsWhole) (hc0 : cond0_0 i)
    (x0 : Vec F S1x80x1024 .f32) (x1 : Vec F S512x80 .f32) (x2 : Vec F S512x1 .f32) :
    out0_A_3 c i arg2 harg2 arg3 harg3 arg4 harg4 arg5 harg5 arg6 harg6 hc0 x0 x1 x2
      = k0_pay2 (k0_pay6 x1 x2 x0) (k0_pay14 x1 x2 x0) k0_pay4 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x512x128) zeros3, View.readCov_unit_zero (S := S1x512x128) _ zeros3]
  simp only [View.readAt_eq_ld, harg2.read_unread, harg3.read_unread, harg4.read_unread,
    View.ld_unit_zero (S := S512x80) zeros2, View.ld_unit_zero (S := S512x1) zeros2, View.ld_unit_zero (S := S1x80x1024) zeros3]

/-- The second result block after the body: the same with the squares. -/
theorem sqBlock_eq (c : Dev nD) (i : grid0.Coords) (arg2 : Memref sig .tc .vmem S1x80x1024 .f32) (harg2 : arg2.IsWhole) (arg3 : Memref sig .tc .vmem S512x80 .f32) (harg3 : arg3.IsWhole) (arg4 : Memref sig .tc .vmem S512x1 .f32) (harg4 : arg4.IsWhole) (arg5 : Memref sig .tc .vmem S1x512x128 .f32) (harg5 : arg5.IsWhole) (arg6 : Memref sig .tc .vmem S1x512x128 .f32) (harg6 : arg6.IsWhole) (hc0 : cond0_0 i)
    (x0 : Vec F S1x80x1024 .f32) (x1 : Vec F S512x80 .f32) (x2 : Vec F S512x1 .f32) :
    out0_A_4 c i arg2 harg2 arg3 harg3 arg4 harg4 arg5 harg5 arg6 harg6 hc0 x0 x1 x2
      = k0_pay3 (k0_pay6 x1 x2 x0) (k0_pay15 x1 x2 x0) k0_pay5 := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x512x128) zeros3, View.readCov_unit_zero (S := S1x512x128) _ zeros3]
  simp only [View.readAt_eq_ld, harg2.read_unread, harg3.read_unread, harg4.read_unread,
    View.ld_unit_zero (S := S512x80) zeros2, View.ld_unit_zero (S := S512x1) zeros2, View.ld_unit_zero (S := S1x80x1024) zeros3]

/-! ## The blocks entry by entry, over the extended reals -/

/-- The zero block of the first result, viewed as a [512, 128] array, is zero at every entry. -/
theorem zeroSum_at (j : S512x128.Idx) :
    shapeCast S512x128 (k0_pay4 (F := Ideal)) shapeCasts_S1x512x128_S512x128 j = 0 := by
  unfold k0_pay4
  refine (congrFun (shapeCast_shapeCast _ shapeCasts_S512x128_S1x512x128 shapeCasts_S1x512x128_S512x128) j).trans ?_
  exact Ideal.ofBits_zero_f32

/-- The zero block of the second result likewise. -/
theorem zeroSq_at (j : S512x128.Idx) :
    shapeCast S512x128 (k0_pay5 (F := Ideal)) shapeCasts_S1x512x128_S512x128 j = 0 := by
  unfold k0_pay5
  refine (congrFun (shapeCast_shapeCast _ shapeCasts_S512x128_S1x512x128 shapeCasts_S1x512x128_S512x128) j).trans ?_
  exact Ideal.ofBits_zero_f32

/-- Entry `(0, h, l)` of a [512, 128] array stored as a [1, 512, 128] block is its entry `(h, l)`: the same row-major
    position `128 h + l`. -/
theorem asBlock_at (v : FVec Ideal S512x128 .f32) (y : S1x512x128.Idx) (h : Fin 512) (l : Fin 128)
    (h1 : (y 1).val = h.val) (h2 : (y 2).val = l.val) :
    shapeCast S1x512x128 v shapeCasts_S512x128_S1x512x128 y = v (ix2 h l) := by
  refine shapeCast_apply v _ y (ix2 h l) ?_
  have hy0 : (y 0).val < 1 := (y 0).isLt
  rw [Shape.rowMajor_val_two, Shape.rowMajor_val_three]
  show h.val * 128 + l.val = ((y 0).val * 512 + (y 1).val) * 128 + (y 2).val
  omega

/-- The first stored block at `(0, h, l)`: `0 + (s + last) = s + last` at `(h, l)`, where `s` is the sum of the first seven
    column blocks and `last` the eighth. -/
theorem sumStored_at (v15 : FVec Ideal S512x1024 .f32) (v41 : FVec Ideal S512x128 .f32) (y : S1x512x128.Idx)
    (h : Fin 512) (l : Fin 128) (h1 : (y 1).val = h.val) (h2 : (y 2).val = l.val) :
    k0_pay2 v15 v41 (k0_pay4 (F := Ideal)) y = addf v41 (k0_pay1 v15) (ix2 h l) := by
  unfold k0_pay2
  refine (asBlock_at _ y h l h1 h2).trans ?_
  refine (addf_apply _ _ _).trans ?_
  refine (congrArg (· + _) (zeroSum_at (ix2 h l))).trans ?_
  exact zero_add _

/-- The second stored block at `(0, h, l)`: the same with the squares. -/
theorem sqStored_at (v15 : FVec Ideal S512x1024 .f32) (v43 : FVec Ideal S512x128 .f32) (y : S1x512x128.Idx)
    (h : Fin 512) (l : Fin 128) (h1 : (y 1).val = h.val) (h2 : (y 2).val = l.val) :
    k0_pay3 v15 v43 (k0_pay5 (F := Ideal)) y = addf v43 (mulf (k0_pay1 v15) (k0_pay1 v15)) (ix2 h l) := by
  unfold k0_pay3
  refine (asBlock_at _ y h l h1 h2).trans ?_
  refine (addf_apply _ _ _).trans ?_
  refine (congrArg (· + _) (zeroSq_at (ix2 h l))).trans ?_
  exact zero_add _

theorem rowSum_congr {w w' : Vec Ideal S512x80 .f32} {b b' : Vec Ideal S512x1 .f32} {x x' : Vec Ideal S1x80x1024 .f32}
    (hw : w = w') (hb : b = b') (hx : x = x') (j : S512x128.Idx) : rowSum w b x j = rowSum w' b' x' j := by
  subst hw hb hx; rfl

theorem rowSq_congr {w w' : Vec Ideal S512x80 .f32} {b b' : Vec Ideal S512x1 .f32} {x x' : Vec Ideal S1x80x1024 .f32}
    (hw : w = w') (hb : b = b') (hx : x = x') (j : S512x128.Idx) : rowSq w b x j = rowSq w' b' x' j := by
  subst hw hb hx; rfl

variable (V : (c : Dev nD) → (b : Ref sig .tc) → Buf (Elt Ideal) ((c : Thread nD τ).loc b))

/-! ## The windows' blocks at a point -/

/-- The block indices of the five windows at grid point `t`: the grid is (256, 1), so the row windows (the input rows
    and the two result arrays) sit at block `(t, 0, 0)` and the weight and bias windows at block `(0, 0)`. -/
theorem blockIdx : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The weight window shows the whole weight array at every point. -/
theorem weights_blk (c : Dev nD) (t : Fin cfg0.N) : (iblk0 V c 1 t : Vec Ideal S512x80 .f32) = V c main_v0 := by
  obtain ⟨-, -, -, e0, e1, -⟩ := blockIdx t
  funext j
  unfold iblk0
  rw [View.read_apply]
  show V c main_v0 _ = V c main_v0 j
  congr 1
  funext a
  apply Fin.ext
  match a with
  | ⟨0, _⟩ => show win0_1.index t (0 : Fin 2) * 512 + 1 * (j 0).val = (j 0).val; rw [e0]; omega
  | ⟨1, _⟩ => show win0_1.index t (1 : Fin 2) * 80 + 1 * (j 1).val = (j 1).val; rw [e1]; omega

/-- The bias window shows the whole bias array at every point. -/
theorem bias_blk (c : Dev nD) (t : Fin cfg0.N) : (iblk0 V c 2 t : Vec Ideal S512x1 .f32) = V c main_v1 := by
  obtain ⟨-, -, -, -, -, e0, e1, -⟩ := blockIdx t
  funext j
  unfold iblk0
  rw [View.read_apply]
  show V c main_v1 _ = V c main_v1 j
  congr 1
  funext a
  apply Fin.ext
  match a with
  | ⟨0, _⟩ => show win0_2.index t (0 : Fin 2) * 512 + 1 * (j 0).val = (j 0).val; rw [e0]; omega
  | ⟨1, _⟩ => show win0_2.index t (1 : Fin 2) * 1 + 1 * (j 1).val = (j 1).val; rw [e1]; omega

/-- The input window at point `t` shows row `t` of the input. -/
theorem input_blk (c : Dev nD) (t : Fin cfg0.N) (r : Fin 256) (hr : r.val = t.val) :
    (iblk0 V c 0 t : Vec Ideal S1x80x1024 .f32) = rowBlk (V c main_arg0) r := by
  obtain ⟨e0, e1, e2, -⟩ := blockIdx t
  funext j
  unfold iblk0 rowBlk
  rw [View.read_apply]
  show V c main_arg0 _ = V c main_arg0 (ix3 r (j 1) (j 2))
  congr 1
  funext a
  apply Fin.ext
  have hj0 : (j 0).val < 1 := (j 0).isLt
  match a with
  | ⟨0, _⟩ => show win0_0.index t (0 : Fin 3) * 1 + 1 * (j 0).val = r.val; rw [e0]; omega
  | ⟨1, _⟩ => show win0_0.index t (1 : Fin 3) * 80 + 1 * (j 1).val = (j 1).val; rw [e1]; omega
  | ⟨2, _⟩ => show win0_0.index t (2 : Fin 3) * 1024 + 1 * (j 2).val = (j 2).val; rw [e2]; omega

/-! ## What point `t` leaves, at an entry of the result arrays -/

/-- Entry `y` of the first result block after point `t` is the lane partial of row `t` at `(y 1, y 2)`, named through any
    index `k` of the result array with `k = (t, y 1, y 2)`. -/
theorem sumAfter_at (c : Dev nD) (t : Fin cfg0.N) (y : S1x512x128.Idx) (k : S256x512x128.Idx)
    (hk0 : (k 0).val = t.val) (hk1 : (k 1).val = (y 1).val) (hk2 : (k 2).val = (y 2).val) :
    (outsAt0 (F := Ideal) V c t).1 y
      = rowSum (V c main_v0) (V c main_v1) (rowBlk (V c main_arg0) (k 0)) (ix2 (k 1) (k 2)) := by
  unfold outsAt0
  dsimp only
  refine (congrFun (sumBlock_eq (F := Ideal) c (grid0.coords t) (ms0_0 t) (hs0_0 t) (ms0_1 t) (hs0_1 t) (ms0_2 t) (hs0_2 t)
    (ms0_3 t) (hs0_3 t) (ms0_4 t) (hs0_4 t) (hcond0_0 t) (iblk0 V c 0 t) (iblk0 V c 1 t) (iblk0 V c 2 t)) y).trans ?_
  refine (sumStored_at _ _ y (k 1) (k 2) hk1.symm hk2.symm).trans ?_
  exact rowSum_congr (weights_blk V c t) (bias_blk V c t) (input_blk V c t (k 0) hk0) _

/-- The same for the second result block. -/
theorem sqAfter_at (c : Dev nD) (t : Fin cfg0.N) (y : S1x512x128.Idx) (k : S256x512x128.Idx)
    (hk0 : (k 0).val = t.val) (hk1 : (k 1).val = (y 1).val) (hk2 : (k 2).val = (y 2).val) :
    (outsAt0 (F := Ideal) V c t).2 y
      = rowSq (V c main_v0) (V c main_v1) (rowBlk (V c main_arg0) (k 0)) (ix2 (k 1) (k 2)) := by
  unfold outsAt0
  dsimp only
  refine (congrFun (sqBlock_eq (F := Ideal) c (grid0.coords t) (ms0_0 t) (hs0_0 t) (ms0_1 t) (hs0_1 t) (ms0_2 t) (hs0_2 t)
    (ms0_3 t) (hs0_3 t) (ms0_4 t) (hs0_4 t) (hcond0_0 t) (iblk0 V c 0 t) (iblk0 V c 1 t) (iblk0 V c 2 t)) y).trans ?_
  refine (sqStored_at _ _ y (k 1) (k 2) hk1.symm hk2.symm).trans ?_
  exact rowSq_congr (weights_blk V c t) (bias_blk V c t) (input_blk V c t (k 0) hk0) _

/-! ## From the blocks to the arrays -/

/-- What point `t` writes back of the first result is block `t` of the array of lane partials. -/
theorem sumFlushed_eq (c : Dev nD) (t : Fin cfg0.N) :
    (dat0 (F := Ideal) V c).flushed 3 t = ((cfg0.win 3).blk t).view.read (Elt Ideal)
      (fun i : S256x512x128.Idx =>
        rowSum (V c main_v0) (V c main_v1) (rowBlk (V c main_arg0) (i 0)) (ix2 (i 1) (i 2))) := by
  obtain ⟨-, -, -, -, -, -, -, e0, e1, e2, -⟩ := blockIdx t
  show (cfg0.win 3).cut (grid0.coords t) ((dat0 V c).after 3 t) = _
  rw [after0_3]
  funext y
  rw [View.read_apply]
  have hy0 : (y 0).val < 1 := (y 0).isLt
  refine sumAfter_at V c t _ (((cfg0.win 3).blk t).view.emb y) ?_ ?_ ?_
  · show win0_3.index t (0 : Fin 3) * 1 + 1 * (y 0).val = t.val; rw [e0]; omega
  · show win0_3.index t (1 : Fin 3) * 512 + 1 * (y 1).val = (y 1).val; rw [e1]; omega
  · show win0_3.index t (2 : Fin 3) * 128 + 1 * (y 2).val = (y 2).val; rw [e2]; omega

/-- What point `t` writes back of the second result is block `t` of the array of lane partials of the squares. -/
theorem sqFlushed_eq (c : Dev nD) (t : Fin cfg0.N) :
    (dat0 (F := Ideal) V c).flushed 4 t = ((cfg0.win 4).blk t).view.read (Elt Ideal)
      (fun i : S256x512x128.Idx =>
        rowSq (V c main_v0) (V c main_v1) (rowBlk (V c main_arg0) (i 0)) (ix2 (i 1) (i 2))) := by
  obtain ⟨-, -, -, -, -, -, -, -, -, -, e0, e1, e2⟩ := blockIdx t
  show (cfg0.win 4).cut (grid0.coords t) ((dat0 V c).after 4 t) = _
  rw [after0_4]
  funext y
  rw [View.read_apply]
  have hy0 : (y 0).val < 1 := (y 0).isLt
  refine sqAfter_at V c t _ (((cfg0.win 4).blk t).view.emb y) ?_ ?_ ?_
  · show win0_4.index t (0 : Fin 3) * 1 + 1 * (y 0).val = t.val; rw [e0]; omega
  · show win0_4.index t (1 : Fin 3) * 512 + 1 * (y 1).val = (y 1).val; rw [e1]; omega
  · show win0_4.index t (2 : Fin 3) * 128 + 1 * (y 2).val = (y 2).val; rw [e2]; omega

/-- An index of the first result array is in point `t`'s block iff each coordinate is in the block's range on its axis. -/
theorem mem_sumBlk (t : Fin cfg0.N) (i : S256x512x128.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v2_0).slice (win0_3.rect t)).set ↔ _
  rw [View.set_slice_whole, Rect.mem_set_unit]
  exact Iff.rfl

/-- The same for the second result array. -/
theorem mem_sqBlk (t : Fin cfg0.N) (i : S256x512x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v2_1).slice (win0_4.rect t)).set ↔ _
  rw [View.set_slice_whole, Rect.mem_set_unit]
  exact Iff.rfl

/-- Every entry `(r, h, l)` of the first result array is in the block point `r` writes back. -/
theorem sum_cover (i : S256x512x128.Idx) :
    ∃ t : Fin cfg0.N, (cfg0.win 3).flush t = true ∧ i ∈ ((cfg0.win 3).blk t).view.set := by
  have hi0 : (i 0).val < 256 := (i 0).isLt
  have hi1 : (i 1).val < 512 := (i 1).isLt
  have hi2 : (i 2).val < 128 := (i 2).isLt
  obtain ⟨t, ht⟩ : ∃ t : Fin cfg0.N, t.val = (i 0).val := ⟨⟨(i 0).val, by rw [show cfg0.N = 256 from N_0]; exact hi0⟩, rfl⟩
  obtain ⟨-, -, -, -, -, -, -, e0, e1, e2, -⟩ := blockIdx t
  refine ⟨t, flush0_3 t, ?_⟩
  rw [mem_sumBlk]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 512 ≤ (i 1).val ∧ (i 1).val < win0_3.index t (1 : Fin 3) * 512 + 512; rw [e1]; omega
  | ⟨2, _⟩ => show win0_3.index t (2 : Fin 3) * 128 ≤ (i 2).val ∧ (i 2).val < win0_3.index t (2 : Fin 3) * 128 + 128; rw [e2]; omega

/-- Every entry `(r, h, l)` of the second result array is in the block point `r` writes back. -/
theorem sq_cover (i : S256x512x128.Idx) :
    ∃ t : Fin cfg0.N, (cfg0.win 4).flush t = true ∧ i ∈ ((cfg0.win 4).blk t).view.set := by
  have hi0 : (i 0).val < 256 := (i 0).isLt
  have hi1 : (i 1).val < 512 := (i 1).isLt
  have hi2 : (i 2).val < 128 := (i 2).isLt
  obtain ⟨t, ht⟩ : ∃ t : Fin cfg0.N, t.val = (i 0).val := ⟨⟨(i 0).val, by rw [show cfg0.N = 256 from N_0]; exact hi0⟩, rfl⟩
  obtain ⟨-, -, -, -, -, -, -, -, -, -, e0, e1, e2⟩ := blockIdx t
  refine ⟨t, flush0_4 t, ?_⟩
  rw [mem_sqBlk]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 512 ≤ (i 1).val ∧ (i 1).val < win0_4.index t (1 : Fin 3) * 512 + 512; rw [e1]; omega
  | ⟨2, _⟩ => show win0_4.index t (2 : Fin 3) * 128 ≤ (i 2).val ∧ (i 2).val < win0_4.index t (2 : Fin 3) * 128 + 128; rw [e2]; omega

/-! ## The two result arrays after the last point -/

theorem sums_eq (c : Dev nD) :
    (dat0 (F := Ideal) V c).arrAt 3 cfg0.N
      = (fun i : S256x512x128.Idx =>
          rowSum (V c main_v0) (V c main_v1) (rowBlk (V c main_arg0) (i 0)) (ix2 (i 1) (i 2))) :=
  (dat0 (F := Ideal) V c).arrAt_eq_of_cover 3 _ (fun t _ => sumFlushed_eq V c t) sum_cover

theorem sumsqs_eq (c : Dev nD) :
    (dat0 (F := Ideal) V c).arrAt 4 cfg0.N
      = (fun i : S256x512x128.Idx =>
          rowSq (V c main_v0) (V c main_v1) (rowBlk (V c main_arg0) (i 0)) (ix2 (i 1) (i 2))) :=
  (dat0 (F := Ideal) V c).arrAt_eq_of_cover 4 _ (fun t _ => sqFlushed_eq V c t) sq_cover

end Cert.ReferenceIdeal.Stats

end
-- ==== Proof.NormR.lean ====
/-
  The second pass, read as a value. The normalising pipeline walks the batch axis of `x : [256, 80, 1024]` one row
  per grid point: point `t` reads row `t` of `x` and the whole of the scaled weights, the scaled bias and the scaled
  mean, and stores `relu (W_s · x_t + b_s) - m_s` as row `t` of the `[256, 512, 1024]` result. Every point writes its
  whole block and nothing is carried from one point to the next, so the result array after the last point is, row by
  row, that one function of the row: this module proves it from the blocks each point reads and writes, for any
  contents of the arrays at the pipeline's entry and any float instance. The arithmetic of a row stays closed.
-/
import proofs.«158665_g2000400206852984_pallasbulk_1224_4_alg».proof.Proof.Rows
import proofs.«158665_g2000400206852984_pallasbulk_1224_4_alg».proof.Proof.Gen.ReferenceIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open Cert.Rows

namespace Cert.ReferenceIdeal.Norm

open Cert.ReferenceIdeal Cert.ReferenceIdeal.Gen

variable {F : FTy → Type} [FloatOps F]
variable (V : (c : Dev nD) → (b : Ref sig .tc) → Buf (Elt F) ((c : Thread nD τ).loc b))

/-- The zero offsets of a rank-3 and of a rank-2 buffer, as constant functions. -/
theorem zero3 : (![0, 0, 0] : Fin 3 → Nat) = fun _ => 0 := funext fun a => by fin_cases a <;> rfl
theorem zero2 : (![0, 0] : Fin 2 → Nat) = fun _ => 0 := funext fun a => by fin_cases a <;> rfl

/-- The block indices over the grid: the window of `x` and the window of the result sit at row `t` of the batch axis
    at point `t`; the weights, the bias and the mean have one block, at index zero. (The grid is 256 × 1: its second
    coordinate, which the index maps of `x` and of the result place on the last axis, is zero at every point.) -/
theorem block_indices : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The row of `x` that grid point `t` reads, and of the result that it writes. -/
def rowOf (t : Fin cfg1.N) : Fin 256 := ⟨t.val, lt_of_lt_of_eq t.isLt N_1⟩

/-- The result array, index by index: entry `(n, h, l)` is entry `(0, h, l)` of the row function at row `n` of `x`. -/
def normOut (c : Dev nD) : S256x512x1024.Idx → Elt F .f32 :=
  fun i => k1_pay1 (V c main_v19) (V c main_v20) (V c main_v21) (rowBlk (V c main_arg0) (i 0))
    (ix3 (0 : Fin 1) (show Fin 512 from i 1) (show Fin 1024 from i 2))

/-- The weights' one block is the whole array. -/
theorem weights_blk (c : Dev nD) (t : Fin cfg1.N) : (iblk1 V c 1 t : Vec F S512x80 .f32) = V c main_v19 := by
  obtain ⟨-, -, -, e0, e1, -⟩ := block_indices t
  funext y
  unfold iblk1
  rw [View.read_apply]
  show V c main_v19 (((cfg1.win 1).blk t).view.emb y) = V c main_v19 y
  congr 1
  funext a
  apply Fin.ext
  match a with
  | ⟨0, _⟩ => show win1_1.index t (0 : Fin 2) * 512 + 1 * (y 0).val = (y 0).val; omega
  | ⟨1, _⟩ => show win1_1.index t (1 : Fin 2) * 80 + 1 * (y 1).val = (y 1).val; omega

/-- The bias's one block is the whole array. -/
theorem bias_blk (c : Dev nD) (t : Fin cfg1.N) : (iblk1 V c 2 t : Vec F S512x1 .f32) = V c main_v20 := by
  obtain ⟨-, -, -, -, -, e0, e1, -⟩ := block_indices t
  funext y
  unfold iblk1
  rw [View.read_apply]
  show V c main_v20 (((cfg1.win 2).blk t).view.emb y) = V c main_v20 y
  congr 1
  funext a
  apply Fin.ext
  match a with
  | ⟨0, _⟩ => show win1_2.index t (0 : Fin 2) * 512 + 1 * (y 0).val = (y 0).val; omega
  | ⟨1, _⟩ => show win1_2.index t (1 : Fin 2) * 1 + 1 * (y 1).val = (y 1).val; omega

/-- The mean's one block is the whole array. -/
theorem mean_blk (c : Dev nD) (t : Fin cfg1.N) : (iblk1 V c 3 t : Vec F S512x1 .f32) = V c main_v21 := by
  obtain ⟨-, -, -, -, -, -, -, e0, e1, -⟩ := block_indices t
  funext y
  unfold iblk1
  rw [View.read_apply]
  show V c main_v21 (((cfg1.win 3).blk t).view.emb y) = V c main_v21 y
  congr 1
  funext a
  apply Fin.ext
  match a with
  | ⟨0, _⟩ => show win1_3.index t (0 : Fin 2) * 512 + 1 * (y 0).val = (y 0).val; omega
  | ⟨1, _⟩ => show win1_3.index t (1 : Fin 2) * 1 + 1 * (y 1).val = (y 1).val; omega

/-- The block of `x` at point `t` is row `t`. -/
theorem x_blk (c : Dev nD) (t : Fin cfg1.N) :
    (iblk1 V c 0 t : Vec F S1x80x1024 .f32) = rowBlk (V c main_arg0) (rowOf t) := by
  obtain ⟨e0, e1, e2, -⟩ := block_indices t
  funext y
  unfold iblk1 rowBlk
  rw [View.read_apply]
  show V c main_arg0 (((cfg1.win 0).blk t).view.emb y) = V c main_arg0 _
  congr 1
  funext a
  apply Fin.ext
  have hy : (y 0).val < 1 := (y 0).isLt
  match a with
  | ⟨0, _⟩ => show win1_0.index t (0 : Fin 3) * 1 + 1 * (y 0).val = t.val; omega
  | ⟨1, _⟩ => show win1_0.index t (1 : Fin 3) * 80 + 1 * (y 1).val = (y 1).val; omega
  | ⟨2, _⟩ => show win1_0.index t (2 : Fin 3) * 1024 + 1 * (y 2).val = (y 2).val; omega

/-- One entry of a row's result, placed in the array: entry `j` of the row function at row `r` is the array's
    entry at any index `i` whose batch coordinate is `r` and whose other two coordinates are `j`'s. -/
theorem entry_eq (W : Vec F S512x80 .f32) (B M : Vec F S512x1 .f32) (X : S256x80x1024.Idx → Elt F .f32)
    (r : Fin 256) (j : S1x512x1024.Idx) (i : S256x512x1024.Idx)
    (h0 : (i 0).val = r.val) (h1 : (i 1).val = (j 1).val) (h2 : (i 2).val = (j 2).val) :
    k1_pay1 W B M (rowBlk X r) j
      = k1_pay1 W B M (rowBlk X (i 0)) (ix3 (0 : Fin 1) (show Fin 512 from i 1) (show Fin 1024 from i 2)) := by
  have hr : (i 0 : Fin 256) = r := Fin.ext h0
  have hj : j = ix3 (0 : Fin 1) (show Fin 512 from i 1) (show Fin 1024 from i 2) := by
    funext a
    apply Fin.ext
    have hj0 : (j 0).val < 1 := (j 0).isLt
    match a with
    | ⟨0, _⟩ => show (j 0).val = 0; omega
    | ⟨1, _⟩ => exact h1.symm
    | ⟨2, _⟩ => exact h2.symm
  rw [hr, ← hj]

/-- What point `t` writes back is block `t` of the result array. -/
theorem flushed_eq (c : Dev nD) (t : Fin cfg1.N) :
    (dat1 (F := F) V c).flushed 4 t = ((cfg1.win 4).blk t).view.read (Elt F) (normOut V c) := by
  show (cfg1.win 4).cut (grid1.coords t) ((dat1 V c).after 4 t) = _
  rw [after1_4]
  unfold out1_4
  rw [View.canon_unit_zero zero3]
  simp only [View.ld_unit_zero (S := S512x80) zero2, View.ld_unit_zero (S := S512x1) zero2,
    View.ld_unit_zero (S := S1x80x1024) zero3]
  rw [weights_blk, bias_blk, mean_blk, x_blk]
  obtain ⟨-, -, -, -, -, -, -, -, -, e0, e1, e2⟩ := block_indices t
  funext j
  have hj0 : (j 0).val < 1 := (j 0).isLt
  refine entry_eq (V c main_v19) (V c main_v20) (V c main_v21) (V c main_arg0) (rowOf t)
    ((win1 4).xinj (grid1.coords t) j) (((cfg1.win 4).blk t).view.emb j) ?_ ?_ ?_
  · show win1_4.index t (0 : Fin 3) * 1 + 1 * (j 0).val = t.val
    omega
  · show win1_4.index t (1 : Fin 3) * 512 + 1 * (j 1).val = (j 1).val
    omega
  · show win1_4.index t (2 : Fin 3) * 1024 + 1 * (j 2).val = (j 2).val
    omega

/-- An index of the result array is in point `t`'s block iff each coordinate is in the block's range on its axis. -/
theorem mem_blk (t : Fin cfg1.N) (i : S256x512x1024.Idx) :
    i ∈ ((cfg1.win 4).blk t).view.set ↔ ∀ a : Fin 3, win1_4.index t a * S1x512x1024.size a ≤ (i a).val
      ∧ (i a).val < win1_4.index t a * S1x512x1024.size a + S1x512x1024.size a := by
  show i ∈ ((View.whole main_v22).slice (win1_4.rect t)).set ↔ _
  rw [View.set_slice_whole, Rect.mem_set_unit]
  exact Iff.rfl

/-- The blocks cover the result array: the index `(n, h, l)` is in the block of the point that walks row `n`. -/
theorem covered (i : S256x512x1024.Idx) :
    ∃ t : Fin cfg1.N, (cfg1.win 4).flush t = true ∧ i ∈ ((cfg1.win 4).blk t).view.set := by
  have h0 : (i 0).val < 256 := (i 0).isLt
  have h1 : (i 1).val < 512 := (i 1).isLt
  have h2 : (i 2).val < 1024 := (i 2).isLt
  obtain ⟨t, ht⟩ : ∃ t : Fin cfg1.N, t.val = (i 0).val := ⟨⟨(i 0).val, lt_of_lt_of_eq h0 N_1.symm⟩, rfl⟩
  obtain ⟨-, -, -, -, -, -, -, -, -, e0, e1, e2⟩ := block_indices t
  refine ⟨t, flush1_4 t, ?_⟩
  rw [mem_blk]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 512 ≤ (i 1).val ∧ (i 1).val < win1_4.index t (1 : Fin 3) * 512 + 512
    omega
  | ⟨2, _⟩ =>
    show win1_4.index t (2 : Fin 3) * 1024 ≤ (i 2).val ∧ (i 2).val < win1_4.index t (2 : Fin 3) * 1024 + 1024
    omega

/-- Row `n` of the result is the second pass's payload of the scaled weights, the scaled bias, the scaled mean and
    row `n` of `x`: `relu (W_s · x_n + b_s) - m_s`. -/
theorem out_eq (c : Dev nD) :
    (dat1 (F := F) V c).arrAt 4 cfg1.N
      = (fun i : S256x512x1024.Idx =>
          k1_pay1 (V c main_v19) (V c main_v20) (V c main_v21) (rowBlk (V c main_arg0) (i 0))
            (ix3 (0 : Fin 1) (show Fin 512 from i 1) (show Fin 1024 from i 2))) :=
  (dat1 (F := F) V c).arrAt_eq_of_cover 4 (normOut V c) (fun t _ => flushed_eq V c t) covered

end Cert.ReferenceIdeal.Norm

end
-- ==== Proof.HostR.lean ====
/-
  The host side of this program, and its result as ONE function of the three arguments.

  Between the passes the host reduces the two arrays of lane partials over their first and last axes to the channel
  sums `s` (of the activations) and `q` (of their squares), and forms, per channel: the mean `s / 262144`; the
  inverse deviation `rsqrt (max (q / 262144 - mean²) 0 + ε)`; and the scaled weights `W · inv`, scaled bias `b · inv`
  and scaled mean `mean · inv` that the second pass reads. Here each buffer the second pass reads is traced back
  through the fold of boundary contents to the launch arrays (a host stretch applies its operations; a pipeline
  leaves its inputs as they were and its outputs at what the first pass's value module says), so the result array
  is the second pass's payload of those, row by row.
-/
import proofs.«158665_g2000400206852984_pallasbulk_1224_4_alg».proof.Proof.Rows
import proofs.«158665_g2000400206852984_pallasbulk_1224_4_alg».proof.Proof.Gen.ReferenceIdeal.Frame
import proofs.«158665_g2000400206852984_pallasbulk_1224_4_alg».proof.Proof.StatsR
import proofs.«158665_g2000400206852984_pallasbulk_1224_4_alg».proof.Proof.NormR
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.StableHlo
open Idealize.ShloMosaic.Pipeline (Dat)
open Cert.Rows

namespace Cert.ReferenceIdeal.Host

open Cert.ReferenceIdeal Cert.ReferenceIdeal.Gen Cert.ReferenceIdeal.Stats

/-! ## The host's arithmetic between the passes, per channel -/

section Arithmetic
variable {F : FTy → Type} [FloatOps F]

/-- A channel sum over the `256 · 1024` entries of the channel, divided by their number (as a `[512, 1]` column). -/
def chanMean (s : FVec F S512 .f32) : FVec F S512x1 .f32 :=
  Host.divf (shapeCast S512x1 s shapeCasts_S512_S512x1)
    (broadcastInDim S512x1 ![] bcast_S_S512x1 (constant S_ .f32 0x48800000#32))

/-- The inverse deviation: `rsqrt (max (E[y²] - E[y]²) 0 + ε)`. -/
def chanInv (s q : FVec F S512 .f32) : FVec F S512x1 .f32 :=
  Host.rsqrt (addf
    (maximumf (subf (chanMean q) (mulf (chanMean s) (chanMean s)))
      (broadcastInDim S512x1 ![] bcast_S_S512x1 (constant S_ .f32 0x00000000#32)))
    (broadcastInDim S512x1 ![] bcast_S_S512x1 (constant S_ .f32 0x3727C5AC#32)))

/-- The weights with each channel's row scaled by its inverse deviation. -/
def scaledW (W : FVec F S512x80 .f32) (s q : FVec F S512 .f32) : FVec F S512x80 .f32 :=
  mulf W (broadcastInDim S512x80 ![0, 1] bcast_S512x1_S512x80_0_1 (chanInv s q))

/-- The bias scaled likewise. -/
def scaledB (B : FVec F S512x1 .f32) (s q : FVec F S512 .f32) : FVec F S512x1 .f32 := mulf B (chanInv s q)

/-- The mean scaled likewise. -/
def scaledM (s q : FVec F S512 .f32) : FVec F S512x1 .f32 := mulf (chanMean s) (chanInv s q)

/-- The result from the launch arrays' reshapes `W`, `B`, the input `X` and the two channel sums: row `n` is the second
    pass's payload `relu (W_s · x_n + b_s) - m_s`. -/
def outOf (X : Vec F S256x80x1024 .f32) (W : FVec F S512x80 .f32) (B : FVec F S512x1 .f32) (s q : FVec F S512 .f32) :
    Vec F S256x512x1024 .f32 :=
  fun i => k1_pay1 (scaledW W s q) (scaledB B s q) (scaledM s q) (rowBlk X (i 0))
    (ix3 (0 : Fin 1) (show Fin 512 from i 1) (show Fin 1024 from i 2))

end Arithmetic

/-! ## The channel sums of this program -/

/-- The channel sums as this program forms them: the host's sum over axes 0 and 2 of the first pass's per-row partials. -/
def chanSum (W : Vec Ideal S512x80 .f32) (B : Vec Ideal S512x1 .f32) (X : Vec Ideal S256x80x1024 .f32) : FVec Ideal S512 .f32 :=
  Host.reduceAdd (fun i : S256x512x128.Idx => rowSum W B (rowBlk X (i 0)) (ix2 (i 1) (i 2))) (constant S_ .f32 0x00000000#32) reducesTo_S256x512x128_S512_d0_2 h_S_

/-- The same for the squares. -/
def chanSumSq (W : Vec Ideal S512x80 .f32) (B : Vec Ideal S512x1 .f32) (X : Vec Ideal S256x80x1024 .f32) : FVec Ideal S512 .f32 :=
  Host.reduceAdd (fun i : S256x512x128.Idx => rowSq W B (rowBlk X (i 0)) (ix2 (i 1) (i 2))) (constant S_ .f32 0x00000000#32) reducesTo_S256x512x128_S512_d0_2 h_S_

/-- The program's result as one function of its three arguments. -/
def final (X : Vec Ideal S256x80x1024 .f32) (A1 : Vec Ideal S512x80x1 .f32) (A2 : Vec Ideal S512 .f32) :
    Vec Ideal S256x512x1024 .f32 :=
  outOf X (shapeCast S512x80 A1 shapeCasts_S512x80x1_S512x80) (shapeCast S512x1 A2 shapeCasts_S512_S512x1)
    (chanSum (shapeCast S512x80 A1 shapeCasts_S512x80x1_S512x80) (shapeCast S512x1 A2 shapeCasts_S512_S512x1) X)
    (chanSumSq (shapeCast S512x80 A1 shapeCasts_S512x80x1_S512x80) (shapeCast S512x1 A2 shapeCasts_S512_S512x1) X)

/-! ## The boundary contents, read back -/

variable (m : (ℓ : Loc nD τ sig) → Buf (Elt Ideal) ℓ) (ρ : Dev nD → PrngReg)

/-- At the first pass's entry the weights' buffer holds the `[512, 80, 1]` argument reshaped to `[512, 80]`; -/
theorem V1_v0 (c : Dev nD) :
    V1 m ρ c main_v0 = shapeCast S512x80 (m ((c : Thread nD τ).loc main_arg1)) shapeCasts_S512x80x1_S512x80 := by
  show StableHlo.after hostOps0 (W0 m ρ c) (Proc.devRef .tc main_v0) = _
  after_results
  rfl

/-- the bias's buffer the `[512]` argument reshaped to `[512, 1]`; -/
theorem V1_v1 (c : Dev nD) :
    V1 m ρ c main_v1 = shapeCast S512x1 (m ((c : Thread nD τ).loc main_arg2)) shapeCasts_S512_S512x1 := by
  show StableHlo.after hostOps0 (W0 m ρ c) (Proc.devRef .tc main_v1) = _
  after_results
  rfl

/-- and the input is as launched. -/
theorem V1_arg0 (c : Dev nD) : V1 m ρ c main_arg0 = m ((c : Thread nD τ).loc main_arg0) := by
  show StableHlo.after hostOps0 (W0 m ρ c) (Proc.devRef .tc main_arg0) = _
  after_results

/-- The first pass leaves its three inputs as it found them, -/
theorem W2_arg0 (c : Dev nD) : W2 m ρ c (Proc.devRef .tc main_arg0) = V1 m ρ c main_arg0 :=
  (W2_arr m ρ c 0).trans (((dat0 (V1 m ρ) c).arrAt_in 0 rfl _).trans (A_eq0 (V1 m ρ) c 0))
theorem W2_v0 (c : Dev nD) : W2 m ρ c (Proc.devRef .tc main_v0) = V1 m ρ c main_v0 :=
  (W2_arr m ρ c 1).trans (((dat0 (V1 m ρ) c).arrAt_in 1 rfl _).trans (A_eq0 (V1 m ρ) c 1))
theorem W2_v1 (c : Dev nD) : W2 m ρ c (Proc.devRef .tc main_v1) = V1 m ρ c main_v1 :=
  (W2_arr m ρ c 2).trans (((dat0 (V1 m ρ) c).arrAt_in 2 rfl _).trans (A_eq0 (V1 m ρ) c 2))

/-- and its two results at the lane partials (the first pass's value module). -/
theorem W2_sums (c : Dev nD) :
    W2 m ρ c (Proc.devRef .tc main_v2_0) = (fun i : S256x512x128.Idx => rowSum (V1 m ρ c main_v0) (V1 m ρ c main_v1) (rowBlk (V1 m ρ c main_arg0) (i 0)) (ix2 (i 1) (i 2))) :=
  (W2_arr m ρ c 3).trans (Stats.sums_eq (V1 m ρ) c)
theorem W2_sumsqs (c : Dev nD) :
    W2 m ρ c (Proc.devRef .tc main_v2_1) = (fun i : S256x512x128.Idx => rowSq (V1 m ρ c main_v0) (V1 m ρ c main_v1) (rowBlk (V1 m ρ c main_arg0) (i 0)) (ix2 (i 1) (i 2))) :=
  (W2_arr m ρ c 4).trans (Stats.sumsqs_eq (V1 m ρ) c)

/-- The second pass's scaled weights, as the host computes them from the contents the first pass leaves. -/
theorem V3_v19 (c : Dev nD) : V3 m ρ c main_v19
    = scaledW (F := Ideal) (W2 m ρ c (Proc.devRef .tc main_v0))
        (Host.reduceAdd (W2 m ρ c (Proc.devRef .tc main_v2_0)) (constant S_ .f32 0x00000000#32) reducesTo_S256x512x128_S512_d0_2 h_S_)
        (Host.reduceAdd (W2 m ρ c (Proc.devRef .tc main_v2_1)) (constant S_ .f32 0x00000000#32) reducesTo_S256x512x128_S512_d0_2 h_S_) := by
  show StableHlo.after hostOps1 (W2 m ρ c) (Proc.devRef .tc main_v19) = _
  after_results
  rfl

/-- Its scaled bias. -/
theorem V3_v20 (c : Dev nD) : V3 m ρ c main_v20
    = scaledB (F := Ideal) (W2 m ρ c (Proc.devRef .tc main_v1))
        (Host.reduceAdd (W2 m ρ c (Proc.devRef .tc main_v2_0)) (constant S_ .f32 0x00000000#32) reducesTo_S256x512x128_S512_d0_2 h_S_)
        (Host.reduceAdd (W2 m ρ c (Proc.devRef .tc main_v2_1)) (constant S_ .f32 0x00000000#32) reducesTo_S256x512x128_S512_d0_2 h_S_) := by
  show StableHlo.after hostOps1 (W2 m ρ c) (Proc.devRef .tc main_v20) = _
  after_results
  rfl

/-- Its scaled mean. -/
theorem V3_v21 (c : Dev nD) : V3 m ρ c main_v21
    = scaledM (F := Ideal)
        (Host.reduceAdd (W2 m ρ c (Proc.devRef .tc main_v2_0)) (constant S_ .f32 0x00000000#32) reducesTo_S256x512x128_S512_d0_2 h_S_)
        (Host.reduceAdd (W2 m ρ c (Proc.devRef .tc main_v2_1)) (constant S_ .f32 0x00000000#32) reducesTo_S256x512x128_S512_d0_2 h_S_) := by
  show StableHlo.after hostOps1 (W2 m ρ c) (Proc.devRef .tc main_v21) = _
  after_results
  rfl

/-- The host operations between the passes do not write the input. -/
theorem V3_arg0 (c : Dev nD) : V3 m ρ c main_arg0 = W2 m ρ c (Proc.devRef .tc main_arg0) := by
  show StableHlo.after hostOps1 (W2 m ρ c) (Proc.devRef .tc main_arg0) = _
  after_results

/-! ## The result -/

/-- The last boundary's contents at the result buffer: the program's closed function of its launch arguments. -/
theorem result_eq (c : Dev nD) :
    W4 m ρ c (Proc.devRef .tc main_v22)
      = final (m ((c : Thread nD τ).loc main_arg0)) (m ((c : Thread nD τ).loc main_arg1)) (m ((c : Thread nD τ).loc main_arg2)) := by
  refine (W4_arr m ρ c 4).trans ?_
  rw [Norm.out_eq (V3 m ρ) c, V3_v19, V3_v20, V3_v21, V3_arg0, W2_sums, W2_sumsqs, W2_v0, W2_v1, W2_arg0,
    V1_v0, V1_v1, V1_arg0]
  rfl

end Cert.ReferenceIdeal.Host

end
-- ==== Proof.SumLaw.lean ====
/-
  The one law that joins the two programs.

  Both programs hand the host an array of lane partials `[A, 512, 128]` and the host sums it over its first and last
  axes, keeping the channel axis: at channel `h` the result is `init + ∑ (a, l), partial (a, h, l)`. The reference
  hands over one partial per batch row (`A = 256`: entry `(r, h, l)` is `f r h l`); the kernel has already added the
  rows up in two blocks of 128 (`A = 2`: entry `(g, h, l)` is `∑ n < 128, f (128 g + n) h l`). The two host sums agree:
  a finite sum over the extended reals may be regrouped freely, since addition there is commutative and associative
  (no cancellation is used, so no finiteness is needed).
-/
import Idealize.ShloMosaic.Lib.ValueIdx
import Idealize.ShloMosaic.PureOps.Ideal.Laws

open scoped BigOperators

noncomputable section

namespace Cert.SumLaw

open Idealize.ShloMosaic Idealize.ShloMosaic.ValueIdx

/-- The indices of an `[A, 512, 128]` array that a sum over axes 0 and 2 sends to channel `j` are those whose middle
    coordinate is `j`: summed, they are the double sum over the first and last coordinates. -/
theorem sum_filter_drop_outer {A : Nat} (h : (⟨3, ![A, 512, 128]⟩ : Shape).ReducesTo [0, 2] ⟨1, ![512]⟩)
    (x : (⟨3, ![A, 512, 128]⟩ : Shape).Idx → EReal) (j : (⟨1, ![512]⟩ : Shape).Idx) :
    ∑ i ∈ Finset.univ.filter (fun i => h.drop i = j), x i
      = ∑ a : Fin A, ∑ l : Fin 128, x (ix3 a (show Fin 512 from j 0) l) := by
  -- the one kept axis of a rank-3 shape without axes 0 and 2 is axis 1, whatever the extents
  have hmid : ∀ i : (⟨3, ![A, 512, 128]⟩ : Shape).Idx, (h.drop i 0 : Nat) = i 1 := fun i => rfl
  rw [← Fintype.sum_prod_type' (f := fun (a : Fin A) (l : Fin 128) => x (ix3 a (show Fin 512 from j 0) l))]
  refine Finset.sum_nbij' (fun i => ((show Fin A from i 0), (show Fin 128 from i 2)))
    (fun p => ix3 p.1 (show Fin 512 from j 0) p.2) ?_ ?_ ?_ ?_ ?_
  · intro i _; exact Finset.mem_univ _
  · intro p _
    refine Finset.mem_filter.2 ⟨Finset.mem_univ _, ?_⟩
    funext b
    apply Fin.ext
    match b with
    | ⟨0, _⟩ => exact hmid _
  · intro i hi
    have hj := (Finset.mem_filter.1 hi).2
    have h1 : (show Fin 512 from j 0) = i 1 := Fin.ext (by rw [← hj]; exact hmid i)
    show ix3 (i 0) (show Fin 512 from j 0) (i 2) = i
    rw [h1]
    exact (eq_ix3 i).symm
  · intro p _; rfl
  · intro i hi
    have hj := (Finset.mem_filter.1 hi).2
    have h1 : (show Fin 512 from j 0) = i 1 := Fin.ext (by rw [← hj]; exact hmid i)
    show x i = x (ix3 (i 0) (show Fin 512 from j 0) (i 2))
    rw [h1]
    exact congrArg x (eq_ix3 i)

/-- 256 rows are two blocks of 128: row `r` is `128 g + n`. -/
theorem sum_rows (G : Fin 256 → EReal) :
    ∑ g : Fin 2, ∑ n : Fin 128, G ⟨128 * g.val + n.val, by omega⟩ = ∑ r : Fin 256, G r := by
  rw [Fin.sum_univ_two, show (∑ r : Fin 256, G r) = ∑ r : Fin (128 + 128), G r from rfl, Fin.sum_univ_add]
  refine congrArg₂ (· + ·) ?_ ?_
  · exact Finset.sum_congr rfl fun n _ => congrArg G (Fin.ext (by simp))
  · exact Finset.sum_congr rfl fun n _ => congrArg G (Fin.ext (by simp <;> omega))

/-- THE LAW. The host's sum over axes 0 and 2 of the kernel's block partials is its sum of the reference's per-row
    partials, from the same initial value. -/
theorem hostReduceAdd_blocks (f : Fin 256 → Fin 512 → Fin 128 → EReal)
    (h2 : (⟨3, ![2, 512, 128]⟩ : Shape).ReducesTo [0, 2] ⟨1, ![512]⟩)
    (h256 : (⟨3, ![256, 512, 128]⟩ : Shape).ReducesTo [0, 2] ⟨1, ![512]⟩) (init : EReal) :
    Ideal.hostReduceAdd h2
        (fun i => (fun (g : Fin 2) (c : Fin 512) (l : Fin 128) => ∑ n : Fin 128, f ⟨128 * g.val + n.val, by omega⟩ c l)
          (i 0) (i 1) (i 2)) init
      = Ideal.hostReduceAdd h256 (fun i => f (i 0) (i 1) (i 2)) init := by
  funext j
  unfold Ideal.hostReduceAdd
  rw [sum_filter_drop_outer h2, sum_filter_drop_outer h256]
  refine congrArg (init + ·) ?_
  show ∑ g : Fin 2, ∑ l : Fin 128, ∑ n : Fin 128, f ⟨128 * g.val + n.val, _⟩ (show Fin 512 from j 0) l
      = ∑ r : Fin 256, ∑ l : Fin 128, f r (show Fin 512 from j 0) l
  rw [← sum_rows (fun r => ∑ l : Fin 128, f r (show Fin 512 from j 0) l)]
  exact Finset.sum_congr rfl fun g _ => Finset.sum_comm

end Cert.SumLaw

end
-- ==== Proof.Bridge.lean ====
/-
  The two programs are one function of their arguments.

  Each program's result has been written as `final X A1 A2` in its own vocabulary (the host modules): the second pass's
  payload of the scaled weights, bias and mean and a row of `X`, the scales computed by the same host arithmetic from
  the two channel sums. The per-row lane partials, the host arithmetic and the second pass's payload are the SAME
  definitions in both programs (their shape side conditions are propositions, so the two spellings are definitionally
  equal). What differs is only how the channel sums are grouped: the kernel's first pass hands the host two blocks of
  partials, each already the sum of 128 rows, the reference's hands it 256 per-row partials. The host's sum over them
  is the same extended real either way (the regrouping law), hence so is everything computed from it.
-/
import proofs.«158665_g2000400206852984_pallasbulk_1224_4_alg».proof.Proof.HostK
import proofs.«158665_g2000400206852984_pallasbulk_1224_4_alg».proof.Proof.HostR
import proofs.«158665_g2000400206852984_pallasbulk_1224_4_alg».proof.Proof.SumLaw

noncomputable section

namespace Cert.Bridge

open Idealize.ShloMosaic Idealize.ShloMosaic.ValueIdx Cert.Rows

/-- The channel sums of the activations agree: the host's sum of the kernel's block partials is its sum of the
    reference's per-row partials (the regrouping law at `f r h l` the lane partial of row `r`). -/
theorem chanSum_eq (W : Vec Ideal Cert.KernelIdeal.S512x80 .f32) (B : Vec Ideal Cert.KernelIdeal.S512x1 .f32)
    (X : Vec Ideal Cert.KernelIdeal.S256x80x1024 .f32) :
    Cert.KernelIdeal.Host.chanSum W B X = Cert.ReferenceIdeal.Host.chanSum W B X := by
  unfold Cert.KernelIdeal.Host.chanSum Cert.ReferenceIdeal.Host.chanSum Host.reduceAdd
  simp only [Ideal.hostReduceAdd_def]
  exact Cert.SumLaw.hostReduceAdd_blocks
    (fun r h l => Cert.KernelIdeal.Stats.rowSum (F := Ideal) W B (rowBlk X r) (ix2 h l)) _ _ _

/-- The channel sums of the squares agree likewise. -/
theorem chanSumSq_eq (W : Vec Ideal Cert.KernelIdeal.S512x80 .f32) (B : Vec Ideal Cert.KernelIdeal.S512x1 .f32)
    (X : Vec Ideal Cert.KernelIdeal.S256x80x1024 .f32) :
    Cert.KernelIdeal.Host.chanSumSq W B X = Cert.ReferenceIdeal.Host.chanSumSq W B X := by
  unfold Cert.KernelIdeal.Host.chanSumSq Cert.ReferenceIdeal.Host.chanSumSq Host.reduceAdd
  simp only [Ideal.hostReduceAdd_def]
  exact Cert.SumLaw.hostReduceAdd_blocks
    (fun r h l => Cert.KernelIdeal.Stats.rowSq (F := Ideal) W B (rowBlk X r) (ix2 h l)) _ _ _

/-- So the two programs' results are the same function of the three arguments. -/
theorem final_eq (X : Vec Ideal Cert.KernelIdeal.S256x80x1024 .f32) (A1 : Vec Ideal Cert.KernelIdeal.S512x80x1 .f32)
    (A2 : Vec Ideal Cert.KernelIdeal.S512 .f32) :
    Cert.ReferenceIdeal.Host.final X A1 A2 = Cert.KernelIdeal.Host.final X A1 A2 := by
  unfold Cert.ReferenceIdeal.Host.final Cert.KernelIdeal.Host.final
  rw [← chanSum_eq, ← chanSumSq_eq]
  rfl

end Cert.Bridge

end
-- ==== Proof.lean ====
/-
  The certificate of a 1×1 convolution + bias + relu + batch normalisation over `x : [256, 80, 1024]`, computed in two
  passes by both programs: pass 1 accumulates per-lane partial sums of `y = relu (W · x_n + b)` and of `y²` over the
  batch rows `n`; the host reduces them to per-channel sums, forms the mean, the variance and its inverse root, and
  scales the weights, the bias and the mean by it; pass 2 writes `relu (W_s · x_n + b_s) - m_s`.

  The kernel and the reference differ only in how pass 1 groups the rows: the kernel walks a `2 × 128` grid and each of
  its two output blocks accumulates 128 rows; the reference walks a `256 × 1` grid and each of its 256 output blocks
  holds one row's partial. The host then sums either array over its block axis and its lane axis. At the exact
  (extended-real) reading the two channel sums are one finite sum grouped in two ways, and addition of extended reals
  is commutative and associative, so they are equal WITHOUT any finiteness assumption — the precondition is never
  opened — and everything downstream is the same function of equal operands.

    frame_Kernel, frame_KernelIdeal, frame_ReferenceIdeal — each program's generated frame certificate.
    preserves_Kernel_KernelIdeal — the idealization rewrote nothing: `True`.
    algebraic_KernelIdeal_ReferenceIdeal — both runs end with the result buffer at the last boundary's contents
      (the run modules); those contents are each program's closed function `final` of the launch arguments (the host
      modules, over the pass-1 and pass-2 value modules); the two `final`s agree (the bridge, by the regrouping law).
-/
import proofs.«158665_g2000400206852984_pallasbulk_1224_4_alg».proof.Defs
import proofs.«158665_g2000400206852984_pallasbulk_1224_4_alg».proof.Proof.Gen.Kernel
import proofs.«158665_g2000400206852984_pallasbulk_1224_4_alg».proof.Proof.Gen.Kernel.Skeleton
import proofs.«158665_g2000400206852984_pallasbulk_1224_4_alg».proof.Proof.Gen.Kernel.Launch
import proofs.«158665_g2000400206852984_pallasbulk_1224_4_alg».proof.Proof.Gen.Kernel.Points
import proofs.«158665_g2000400206852984_pallasbulk_1224_4_alg».proof.Proof.Gen.Kernel.Frame
import proofs.«158665_g2000400206852984_pallasbulk_1224_4_alg».proof.Proof.Gen.KernelIdeal
import proofs.«158665_g2000400206852984_pallasbulk_1224_4_alg».proof.Proof.Gen.KernelIdeal.Skeleton
import proofs.«158665_g2000400206852984_pallasbulk_1224_4_alg».proof.Proof.Gen.KernelIdeal.Launch
import proofs.«158665_g2000400206852984_pallasbulk_1224_4_alg».proof.Proof.Gen.KernelIdeal.Points
import proofs.«158665_g2000400206852984_pallasbulk_1224_4_alg».proof.Proof.Gen.KernelIdeal.Frame
import proofs.«158665_g2000400206852984_pallasbulk_1224_4_alg».proof.Proof.Gen.ReferenceIdeal
import proofs.«158665_g2000400206852984_pallasbulk_1224_4_alg».proof.Proof.Gen.ReferenceIdeal.Skeleton
import proofs.«158665_g2000400206852984_pallasbulk_1224_4_alg».proof.Proof.Gen.ReferenceIdeal.Launch
import proofs.«158665_g2000400206852984_pallasbulk_1224_4_alg».proof.Proof.Gen.ReferenceIdeal.Points
import proofs.«158665_g2000400206852984_pallasbulk_1224_4_alg».proof.Proof.Gen.ReferenceIdeal.Frame
import proofs.«158665_g2000400206852984_pallasbulk_1224_4_alg».proof.Proof.Gen.Pre_finite_inputs
import Idealize.ShloMosaic.Adequacy
import Idealize.ShloMosaic.Init
import proofs.«158665_g2000400206852984_pallasbulk_1224_4_alg».proof.Proof.RunK
import proofs.«158665_g2000400206852984_pallasbulk_1224_4_alg».proof.Proof.RunR
import proofs.«158665_g2000400206852984_pallasbulk_1224_4_alg».proof.Proof.HostK
import proofs.«158665_g2000400206852984_pallasbulk_1224_4_alg».proof.Proof.HostR
import proofs.«158665_g2000400206852984_pallasbulk_1224_4_alg».proof.Proof.Bridge

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The ideal pass rewrote no operation. -/
theorem preserves : Cert.preserves_Kernel_KernelIdeal := trivial

/-- From memories agreeing on the arguments both idealized programs run, and both result buffers end at the kernel's
    closed function of the arguments: the reference's own closed function is that function. -/
theorem algebraic : Cert.algebraic_KernelIdeal_ReferenceIdeal := by
  intro m ρ m' ρ' _ hagree
  refine ⟨fun c => Cert.KernelIdeal.Gen.W4 m ρ c (Proc.devRef .tc Cert.KernelIdeal.main_v22),
    Cert.KernelIdeal.Run.run m ρ, ?_⟩
  refine (θ_run Cert.ReferenceIdeal.defs _ _).mono (fun _ h c => ⟨(h c).1.trans ?_, (h c).2⟩)
    (Cert.ReferenceIdeal.Run.run m' ρ')
  show _ = Cert.KernelIdeal.Gen.W4 m ρ c (Proc.devRef .tc Cert.KernelIdeal.main_v22)
  rw [Cert.ReferenceIdeal.Host.result_eq m' ρ' c, Cert.KernelIdeal.Host.result_eq m ρ c,
    (hagree c).1, (hagree c).2.1, (hagree c).2.2]
  exact Cert.Bridge.final_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
